-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x128 : Shape := ⟨2, ![80000, 128]⟩
abbrev S2x1280000 : Shape := ⟨2, ![2, 1280000]⟩
abbrev S128x64 : Shape := ⟨2, ![128, 64]⟩
abbrev S64x40 : Shape := ⟨2, ![64, 40]⟩
abbrev S_ : Shape := ⟨0, ![]⟩

class Facts : Prop where
  bcast_S_S80000x128 : S_.BroadcastsInDim S80000x128 (![] : Fin 0 → Fin S80000x128.rank)
  reducesTo_S80000x128_S_d0_1 : S80000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x40 : S_.BroadcastsInDim S64x40 (![] : Fin 0 → Fin S64x40.rank)
  reducesTo_S64x40_S_d0_1 : S64x40.ReducesTo [0, 1] S_

variable [Facts]

def fn {F : FTy → Type} [FloatOps F] (main_arg0 : FVec F S80000x128 .f32) (main_arg1 : IVec S2x1280000 32) (main_arg2 : FVec F S128x64 .f32) (main_arg3 : FVec F S64x40 .f32) : IVec S_ 1 :=
  let main_v0 : FVec F S80000x128 .f32 := Host.absf main_arg0
  let main_cst : FVec F S_ .f32 := constant S_ .f32 0x7F800000#32
  let main_v1 : FVec F S80000x128 .f32 := broadcastInDim S80000x128 ![] bcast_S_S80000x128 main_cst
  let main_v2 : IVec S80000x128 1 := cmpf .olt main_v0 main_v1
  let main_c : IVec S_ 1 := constantI S_ 1 1#1
  let main_v3 : IVec S_ 1 := (fun x v => Host.reduce IntOp.andi x v reducesTo_S80000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64x40 .f32 := Host.absf main_arg3
  let main_cst_2 : FVec F S_ .f32 := constant S_ .f32 0x7F800000#32
  let main_v10 : FVec F S64x40 .f32 := broadcastInDim S64x40 ![] bcast_S_S64x40 main_cst_2
  let main_v11 : IVec S64x40 1 := cmpf .olt main_v9 main_v10
  let main_c_3 : IVec S_ 1 := constantI S_ 1 1#1
  let main_v12 : IVec S_ 1 := (fun x v => Host.reduce IntOp.andi x v reducesTo_S64x40_S_d0_1 h_S_) main_v11 main_c_3
  let main_v13 : IVec S_ 1 := andi main_v8 main_v12
  main_v13
-- ==== Kernel.lean ====
abbrev S80000x128 : Shape := ⟨2, ![80000, 128]⟩
abbrev S2x1280000 : Shape := ⟨2, ![2, 1280000]⟩
abbrev S128x64 : Shape := ⟨2, ![128, 64]⟩
abbrev S64x40 : Shape := ⟨2, ![64, 40]⟩
abbrev S80000x64 : Shape := ⟨2, ![80000, 64]⟩
abbrev S8000x128 : Shape := ⟨2, ![8000, 128]⟩
abbrev S8000x64 : Shape := ⟨2, ![8000, 64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S80000x40 : Shape := ⟨2, ![80000, 40]⟩
abbrev S8000x40 : Shape := ⟨2, ![8000, 40]⟩
abbrev S1280000x40 : Shape := ⟨2, ![1280000, 40]⟩
abbrev S8000 : Shape := ⟨1, ![8000]⟩
abbrev S8000x1 : Shape := ⟨2, ![8000, 1]⟩

abbrev nBuf : Space → Nat
  | .hbm => 41
  | .vmem => 14
  | .smem => 0
  | _ => 0

abbrev bufTy : (tb : Table) → Fin (tcTables nBuf tb) → BufTy
  | .hbm, ⟨0, _⟩ => ⟨S80000x128, .f32⟩
  | .hbm, ⟨1, _⟩ => ⟨S2x1280000, .i32⟩
  | .hbm, ⟨2, _⟩ => ⟨S128x64, .f32⟩
  | .hbm, ⟨3, _⟩ => ⟨S64x40, .f32⟩
  | .hbm, ⟨4, _⟩ => ⟨S80000x64, .f32⟩
  | .hbm, ⟨5, _⟩ => ⟨S1x1280000, .i32⟩
  | .hbm, ⟨6, _⟩ => ⟨S1280000, .i32⟩
  | .hbm, ⟨7, _⟩ => ⟨S1x1280000, .i32⟩
  | .hbm, ⟨8, _⟩ => ⟨S1280000, .i32⟩
  | .hbm, ⟨9, _⟩ => ⟨S_, .i32⟩
  | .hbm, ⟨10, _⟩ => ⟨S1280000, .i32⟩
  | .hbm, ⟨11, _⟩ => ⟨S1280000, .i1⟩
  | .hbm, ⟨12, _⟩ => ⟨S_, .i32⟩
  | .hbm, ⟨13, _⟩ => ⟨S1280000, .i32⟩
  | .hbm, ⟨14, _⟩ => ⟨S1280000, .i32⟩
  | .hbm, ⟨15, _⟩ => ⟨S1280000, .i32⟩
  | .hbm, ⟨16, _⟩ => ⟨S1280000x1, .i32⟩
  | .hbm, ⟨17, _⟩ => ⟨S1280000x64, .f32⟩
  | .hbm, ⟨18, _⟩ => ⟨S_, .f32⟩
  | .hbm, ⟨19, _⟩ => ⟨S80000x64, .f32⟩
  | .hbm, ⟨20, _⟩ => ⟨S1280000x1, .i32⟩
  | .hbm, ⟨21, _⟩ => ⟨S80000x64, .f32⟩
  | .hbm, ⟨22, _⟩ => ⟨S80000x40, .f32⟩
  | .hbm, ⟨23, _⟩ => ⟨S1x1280000, .i32⟩
  | .hbm, ⟨24, _⟩ => ⟨S1280000, .i32⟩
  | .hbm, ⟨25, _⟩ => ⟨S1x1280000, .i32⟩
  | .hbm, ⟨26, _⟩ => ⟨S1280000, .i32⟩
  | .hbm, ⟨27, _⟩ => ⟨S_, .i32⟩
  | .hbm, ⟨28, _⟩ => ⟨S1280000, .i32⟩
  | .hbm, ⟨29, _⟩ => ⟨S1280000, .i1⟩
  | .hbm, ⟨30, _⟩ => ⟨S_, .i32⟩
  | .hbm, ⟨31, _⟩ => ⟨S1280000, .i32⟩
  | .hbm, ⟨32, _⟩ => ⟨S1280000, .i32⟩
  | .hbm, ⟨33, _⟩ => ⟨S1280000, .i32⟩
  | .hbm, ⟨34, _⟩ => ⟨S1280000x1, .i32⟩
  | .hbm, ⟨35, _⟩ => ⟨S1280000x40, .f32⟩
  | .hbm, ⟨36, _⟩ => ⟨S_, .f32⟩
  | .hbm, ⟨37, _⟩ => ⟨S80000x40, .f32⟩
  | .hbm, ⟨38, _⟩ => ⟨S1280000x1, .i32⟩
  | .hbm, ⟨39, _⟩ => ⟨S80000x40, .f32⟩
  | .hbm, ⟨40, _⟩ => ⟨S80000x40, .f32⟩
  | .local _ .vmem, ⟨0, _⟩ => ⟨S8000x128, .f32⟩
  | .local _ .vmem, ⟨1, _⟩ => ⟨S8000x128, .f32⟩
  | .local _ .vmem, ⟨2, _⟩ => ⟨S128x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S8000x64, .f32⟩
  | .local _ .vmem, ⟨7, _⟩ => ⟨S64x40, .f32⟩
  | .local _ .vmem, ⟨8, _⟩ => ⟨S8000x40, .f32⟩
  | .local _ .vmem, ⟨9, _⟩ => ⟨S8000x40, .f32⟩
  | .local _ .vmem, ⟨10, _⟩ => ⟨S8000x40, .f32⟩
  | .local _ .vmem, ⟨11, _⟩ => ⟨S8000x40, .f32⟩
  | .local _ .vmem, ⟨12, _⟩ => ⟨S8000x40, .f32⟩
  | .local _ .vmem, ⟨13, _⟩ => ⟨S8000x40, .f32⟩
  | _, _ => ⟨S80000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S8000x64_S8000x64_0_0 : ∀ a, (![0, 0] : Fin 2 → Nat) a + S8000x64.size a ≤ S8000x64.size a
  h_S8000x64 : 0 < S8000x64.numel
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S80000x64 : S_.BroadcastsInDim S80000x64 (![] : Fin 0 → Fin S80000x64.rank)
  shapeCasts_S8000x64_S8000x64 : S8000x64.ShapeCasts S8000x64
  inb_S64x40_S64x40_0_0 : ∀ a, (![0, 0] : Fin 2 → Nat) a + S64x40.size a ≤ S64x40.size a
  h_S64x40 : 0 < S64x40.numel
  inb_S8000x40_S8000x40_0_0 : ∀ a, (![0, 0] : Fin 2 → Nat) a + S8000x40.size a ≤ S8000x40.size a
  h_S8000x40 : 0 < S8000x40.numel
  bcast_S_S80000x40 : S_.BroadcastsInDim S80000x40 (![] : Fin 0 → Fin S80000x40.rank)
  shapeCasts_S8000x40_S8000x40 : S8000x40.ShapeCasts S8000x40
  reduces_S8000x40_S8000 : S8000x40.Reduces [1] S8000
  shapeCasts_S8000_S8000x1 : S8000.ShapeCasts S8000x1
  broadcasts_S8000x1_S8000x40 : S8000x1.Broadcasts S8000x40
  dot_S8000x128_S128x64_S8000x64_1_0_0_1_n_n_wf : DotDims.WF S8000x128 S128x64 S8000x64 [1] [0] [0] [1] [] []
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S8000x64_S64x40_S8000x40_1_0_0_1_n_n_wf : DotDims.WF S8000x64 S64x40 S8000x40 [1] [0] [0] [1] [] []
  gather_S80000x40_S1280000x1_S1280000x40_1_0_n_n_0_1_140_wf : GatherDims.WF S80000x40 S1280000x1 S1280000x40 [1] [0] [] [0] [] 1 ![1, 40]
  scatter_S80000x40_S1280000x1_S1280000x40_1_0_0_1_wf : ScatterDims.WF S80000x40 S1280000x1 S1280000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S80000x128.size a
  hwx0_0 : ∀ i : grid0.Coords, EltTy.bits .f32 = 32 ∨ (Rect.block (s := S80000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S80000x64.size a
  hwx0_2 : ∀ i : grid0.Coords, EltTy.bits .f32 = 32 ∨ (Rect.block (s := S80000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S80000x64.size a
  hwx1_0 : ∀ i : grid1.Coords, EltTy.bits .f32 = 32 ∨ (Rect.block (s := S80000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x40.size a ≤ S80000x40.size a
  hwx1_2 : ∀ i : grid1.Coords, EltTy.bits .f32 = 32 ∨ (Rect.block (s := S80000x40) S8000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x40.size a ≤ S80000x40.size a
  hwx2_0 : ∀ i : grid2.Coords, EltTy.bits .f32 = 32 ∨ (Rect.block (s := S80000x40) S8000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x40.size a ≤ S80000x40.size a
  hwx2_1 : ∀ i : grid2.Coords, EltTy.bits .f32 = 32 ∨ (Rect.block (s := S80000x40) S8000x40.size (cc2_transform_1 i) (hinb2_1 i)).WholeWords (EltTy.packing .f32)

variable [Facts₀]

def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S8000x64_S64x40_S8000x40_1_0_0_1_n_n : DotDims S8000x64 S64x40 S8000x40 where
  lhsContracting := [1]
  rhsContracting := [0]
  lhsNonContracting := [0]
  rhsNonContracting := [1]
  lhsBatch := []
  rhsBatch := []
  wf := dot_S8000x64_S64x40_S8000x40_1_0_0_1_n_n_wf
def gather_S80000x40_S1280000x1_S1280000x40_1_0_n_n_0_1_140 : GatherDims S80000x40 S1280000x1 S1280000x40 where
  offsetDims := [1]
  collapsedSliceDims := [0]
  operandBatchingDims := []
  startIndicesBatchingDims := []
  startIndexMap := [0]
  indexVectorDim := 1
  sliceSizes := ![1, 40]
  wf := gather_S80000x40_S1280000x1_S1280000x40_1_0_n_n_0_1_140_wf
def scatter_S80000x40_S1280000x1_S1280000x40_1_0_0_1 : ScatterDims S80000x40 S1280000x1 S1280000x40 where
  updateWindowDims := [1]
  insertedWindowDims := [0]
  scatterDimsToOperandDims := [0]
  indexVectorDim := 1
  wf := scatter_S80000x40_S1280000x1_S1280000x40_1_0_0_1_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S8000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v29) S8000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S8000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S80000x128 : Shape := ⟨2, ![80000, 128]⟩
abbrev S2x1280000 : Shape := ⟨2, ![2, 1280000]⟩
abbrev S128x64 : Shape := ⟨2, ![128, 64]⟩
abbrev S64x40 : Shape := ⟨2, ![64, 40]⟩
abbrev S80000x64 : Shape := ⟨2, ![80000, 64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S80000x40 : Shape := ⟨2, ![80000, 40]⟩
abbrev S1280000x40 : Shape := ⟨2, ![1280000, 40]⟩
abbrev S80000 : Shape := ⟨1, ![80000]⟩
abbrev S80000x1 : Shape := ⟨2, ![80000, 1]⟩

abbrev nBuf : Space → Nat
  | .hbm => 58
  | .vmem => 0
  | .smem => 0
  | _ => 0

abbrev bufTy : (tb : Table) → Fin (tcTables nBuf tb) → BufTy
  | .hbm, ⟨0, _⟩ => ⟨S80000x128, .f32⟩
  | .hbm, ⟨1, _⟩ => ⟨S2x1280000, .i32⟩
  | .hbm, ⟨2, _⟩ => ⟨S128x64, .f32⟩
  | .hbm, ⟨3, _⟩ => ⟨S64x40, .f32⟩
  | .hbm, ⟨4, _⟩ => ⟨S80000x64, .f32⟩
  | .hbm, ⟨5, _⟩ => ⟨S1x1280000, .i32⟩
  | .hbm, ⟨6, _⟩ => ⟨S1280000, .i32⟩
  | .hbm, ⟨7, _⟩ => ⟨S1x1280000, .i32⟩
  | .hbm, ⟨8, _⟩ => ⟨S1280000, .i32⟩
  | .hbm, ⟨9, _⟩ => ⟨S_, .i32⟩
  | .hbm, ⟨10, _⟩ => ⟨S1280000, .i32⟩
  | .hbm, ⟨11, _⟩ => ⟨S1280000, .i1⟩
  | .hbm, ⟨12, _⟩ => ⟨S_, .i32⟩
  | .hbm, ⟨13, _⟩ => ⟨S1280000, .i32⟩
  | .hbm, ⟨14, _⟩ => ⟨S1280000, .i32⟩
  | .hbm, ⟨15, _⟩ => ⟨S1280000, .i32⟩
  | .hbm, ⟨16, _⟩ => ⟨S1280000x1, .i32⟩
  | .hbm, ⟨17, _⟩ => ⟨S1280000x64, .f32⟩
  | .hbm, ⟨18, _⟩ => ⟨S_, .f32⟩
  | .hbm, ⟨19, _⟩ => ⟨S80000x64, .f32⟩
  | .hbm, ⟨20, _⟩ => ⟨S1280000x1, .i32⟩
  | .hbm, ⟨21, _⟩ => ⟨S80000x64, .f32⟩
  | .hbm, ⟨22, _⟩ => ⟨S_, .f32⟩
  | .hbm, ⟨23, _⟩ => ⟨S80000x64, .f32⟩
  | .hbm, ⟨24, _⟩ => ⟨S80000x64, .f32⟩
  | .hbm, ⟨25, _⟩ => ⟨S80000x40, .f32⟩
  | .hbm, ⟨26, _⟩ => ⟨S1x1280000, .i32⟩
  | .hbm, ⟨27, _⟩ => ⟨S1280000, .i32⟩
  | .hbm, ⟨28, _⟩ => ⟨S1x1280000, .i32⟩
  | .hbm, ⟨29, _⟩ => ⟨S1280000, .i32⟩
  | .hbm, ⟨30, _⟩ => ⟨S_, .i32⟩
  | .hbm, ⟨31, _⟩ => ⟨S1280000, .i32⟩
  | .hbm, ⟨32, _⟩ => ⟨S1280000, .i1⟩
  | .hbm, ⟨33, _⟩ => ⟨S_, .i32⟩
  | .hbm, ⟨34, _⟩ => ⟨S1280000, .i32⟩
  | .hbm, ⟨35, _⟩ => ⟨S1280000, .i32⟩
  | .hbm, ⟨36, _⟩ => ⟨S1280000, .i32⟩
  | .hbm, ⟨37, _⟩ => ⟨S1280000x1, .i32⟩
  | .hbm, ⟨38, _⟩ => ⟨S1280000x40, .f32⟩
  | .hbm, ⟨39, _⟩ => ⟨S_, .f32⟩
  | .hbm, ⟨40, _⟩ => ⟨S80000x40, .f32⟩
  | .hbm, ⟨41, _⟩ => ⟨S1280000x1, .i32⟩
  | .hbm, ⟨42, _⟩ => ⟨S80000x40, .f32⟩
  | .hbm, ⟨43, _⟩ => ⟨S_, .f32⟩
  | .hbm, ⟨44, _⟩ => ⟨S80000, .f32⟩
  | .hbm, ⟨45, _⟩ => ⟨S_, .f32⟩
  | .hbm, ⟨46, _⟩ => ⟨S80000, .f32⟩
  | .hbm, ⟨47, _⟩ => ⟨S80000, .f32⟩
  | .hbm, ⟨48, _⟩ => ⟨S80000x1, .f32⟩
  | .hbm, ⟨49, _⟩ => ⟨S80000x40, .f32⟩
  | .hbm, ⟨50, _⟩ => ⟨S80000x40, .f32⟩
  | .hbm, ⟨51, _⟩ => ⟨S80000x40, .f32⟩
  | .hbm, ⟨52, _⟩ => ⟨S_, .f32⟩
  | .hbm, ⟨53, _⟩ => ⟨S80000, .f32⟩
  | .hbm, ⟨54, _⟩ => ⟨S80000x1, .f32⟩
  | .hbm, ⟨55, _⟩ => ⟨S80000x1, .f32⟩
  | .hbm, ⟨56, _⟩ => ⟨S80000x40, .f32⟩
  | .hbm, ⟨57, _⟩ => ⟨S80000x40, .f32⟩
  | _, _ => ⟨S80000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call1_cst : Ref sig .tc := ⟨.hbm, 43, rfl⟩
abbrev main_call1_v0 : Ref sig .tc := ⟨.hbm, 44, rfl⟩
abbrev main_call1_cst_0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_cst_1 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_v31 : Ref sig .tc := ⟨.hbm, 57, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S80000x64 : S_.BroadcastsInDim S80000x64 (![] : Fin 0 → Fin S80000x64.rank)
  bcast_S_S80000x40 : S_.BroadcastsInDim S80000x40 (![] : Fin 0 → Fin S80000x40.rank)
  reducesTo_S80000x40_S80000_d1 : S80000x40.ReducesTo [1] S80000
  h_S_ : 0 < S_.numel
  bcast_S_S80000 : S_.BroadcastsInDim S80000 (![] : Fin 0 → Fin S80000.rank)
  bcast_S80000_S80000x1_0 : S80000.BroadcastsInDim S80000x1 (![0] : Fin 1 → Fin S80000x1.rank)
  bcast_S80000x1_S80000x40_0_1 : S80000x1.BroadcastsInDim S80000x40 (![0, 1] : Fin 2 → Fin S80000x40.rank)
  dot_S80000x128_S128x64_S80000x64_1_0_0_1_n_n_wf : DotDims.WF S80000x128 S128x64 S80000x64 [1] [0] [0] [1] [] []
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S80000x64_S64x40_S80000x40_1_0_0_1_n_n_wf : DotDims.WF S80000x64 S64x40 S80000x40 [1] [0] [0] [1] [] []
  gather_S80000x40_S1280000x1_S1280000x40_1_0_n_n_0_1_140_wf : GatherDims.WF S80000x40 S1280000x1 S1280000x40 [1] [0] [] [0] [] 1 ![1, 40]
  scatter_S80000x40_S1280000x1_S1280000x40_1_0_0_1_wf : ScatterDims.WF S80000x40 S1280000x1 S1280000x40 [1] [0] [0] 1

variable [Facts₀]

def dot_S80000x128_S128x64_S80000x64_1_0_0_1_n_n : DotDims S80000x128 S128x64 S80000x64 where
  lhsContracting := [1]
  rhsContracting := [0]
  lhsNonContracting := [0]
  rhsNonContracting := [1]
  lhsBatch := []
  rhsBatch := []
  wf := dot_S80000x128_S128x64_S80000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S80000x64_S64x40_S80000x40_1_0_0_1_n_n : DotDims S80000x64 S64x40 S80000x40 where
  lhsContracting := [1]
  rhsContracting := [0]
  lhsNonContracting := [0]
  rhsNonContracting := [1]
  lhsBatch := []
  rhsBatch := []
  wf := dot_S80000x64_S64x40_S80000x40_1_0_0_1_n_n_wf
def gather_S80000x40_S1280000x1_S1280000x40_1_0_n_n_0_1_140 : GatherDims S80000x40 S1280000x1 S1280000x40 where
  offsetDims := [1]
  collapsedSliceDims := [0]
  operandBatchingDims := []
  startIndicesBatchingDims := []
  startIndexMap := [0]
  indexVectorDim := 1
  sliceSizes := ![1, 40]
  wf := gather_S80000x40_S1280000x1_S1280000x40_1_0_n_n_0_1_140_wf
def scatter_S80000x40_S1280000x1_S1280000x40_1_0_0_1 : ScatterDims S80000x40 S1280000x1 S1280000x40 where
  updateWindowDims := [1]
  insertedWindowDims := [0]
  scatterDimsToOperandDims := [0]
  indexVectorDim := 1
  wf := scatter_S80000x40_S1280000x1_S1280000x40_1_0_0_1_wf

class Facts : Prop extends Facts₀ where

variable [Facts]
-- ==== Proof.KernRun.lean ====
/-
  The idealized kernel program's run with its result buffer NAMED.

  The program's @main is three kernel regions among two stretches of host operations.  Its run over those five segments
  ends in a thread state holding every unscoped buffer at the last boundary's contents `Gen.W5`; the frame claim reads
  only the four argument buffers off that state.  Here the same run is read at one more buffer: the result `main_v30`
  ends at `Gen.W5 … main_v30`, which the later modules evaluate region by region.  (The run itself — the segments, the
  launch, the chain of boundary contents — is the frame's, cited through the library's several-region launch theorem.)
-/
import proofs.«127618_j50096498540828_1_alg».proof.Proof.Gen.KernelIdeal.Frame

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument buffers as launched. -/
theorem run_named : θ_run defs (onTc (τ := τ) (main (F := F))) ⟨m, fun _ => 0, ρ⟩ (fun r => ∀ c : Dev nD,
      r.2.mem ((c.tc : Thread nD τ).loc main_v30) = W5 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v30 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Run

end
-- ==== Proof.KernTerm.lean ====
/-
  The host computation between the kernel program's three regions, named: the edge aggregation of a node table,
  a composition of host operations exactly as the program applies them.  It is carried as an opaque function of
  the edge list and the table.
-/
import proofs.«127618_j50096498540828_1_alg».proof.Proof.Gen.KernelIdeal

noncomputable section

namespace Cert.KernelIdeal.Term

open Cert.KernelIdeal Cert.KernelIdeal.Gen Idealize.ShloMosaic

variable {F : FTy → Type} [FloatOps F]

/-- Row 0 of the edge list as a column of row indices into the node table: a negative entry is wrapped by adding the
    number of nodes, as the host's gather normalizes its indices. -/
def srcIdx (e : (⟨S2x1280000, .i32⟩ : BufTy).Contents (Elt F)) : (⟨S1280000x1, .i32⟩ : BufTy).Contents (Elt F) :=
  broadcastInDim S1280000x1 ![0] bcast_S1280000_S1280000x1_0
    (select
      (cmpi .slt (shapeCast _ (extractStridedSlice S1x1280000 ![0, 0] e slices_S2x1280000_S1x1280000_0_0) shapeCasts_S1x1280000_S1280000)
        (broadcastInDim S1280000 ![] bcast_S_S1280000 (constantI S_ 32 0#32)))
      (addi (shapeCast _ (extractStridedSlice S1x1280000 ![0, 0] e slices_S2x1280000_S1x1280000_0_0) shapeCasts_S1x1280000_S1280000)
        (broadcastInDim S1280000 ![] bcast_S_S1280000 (constantI S_ 32 80000#32)))
      (shapeCast _ (extractStridedSlice S1x1280000 ![0, 0] e slices_S2x1280000_S1x1280000_0_0) shapeCasts_S1x1280000_S1280000))

/-- Row 1 of the edge list as a column of destination rows. -/
def dstIdx (e : (⟨S2x1280000, .i32⟩ : BufTy).Contents (Elt F)) : (⟨S1280000x1, .i32⟩ : BufTy).Contents (Elt F) :=
  broadcastInDim S1280000x1 ![0] bcast_S1280000_S1280000x1_0
    (shapeCast _ (extractStridedSlice S1x1280000 ![1, 0] e slices_S2x1280000_S1x1280000_1_0) shapeCasts_S1x1280000_S1280000)

/-- The edge aggregation of a 64-column node table: every edge's source row, added into the edge's destination row
    of a table of zeros. -/
def agg64 (e : (⟨S2x1280000, .i32⟩ : BufTy).Contents (Elt F)) (h : (⟨S80000x64, .f32⟩ : BufTy).Contents (Elt F)) :
    (⟨S80000x64, .f32⟩ : BufTy).Contents (Elt F) :=
  Host.scatterAdd scatter_S80000x64_S1280000x1_S1280000x64_1_0_0_1
    (broadcastInDim S80000x64 ![] bcast_S_S80000x64 (constant S_ .f32 0x00000000#32)) (dstIdx e)
    (Host.gather gather_S80000x64_S1280000x1_S1280000x64_1_0_n_n_0_1_164 h (srcIdx e))

/-- The same aggregation of a 40-column node table. -/
def agg40 (e : (⟨S2x1280000, .i32⟩ : BufTy).Contents (Elt F)) (h : (⟨S80000x40, .f32⟩ : BufTy).Contents (Elt F)) :
    (⟨S80000x40, .f32⟩ : BufTy).Contents (Elt F) :=
  Host.scatterAdd scatter_S80000x40_S1280000x1_S1280000x40_1_0_0_1
    (broadcastInDim S80000x40 ![] bcast_S_S80000x40 (constant S_ .f32 0x00000000#32)) (dstIdx e)
    (Host.gather gather_S80000x40_S1280000x1_S1280000x40_1_0_n_n_0_1_140 h (srcIdx e))

end Cert.KernelIdeal.Term

end
-- ==== Proof.Spec.lean ====
/-
  The mathematics both programs compute, stated once over literal shapes and the extended reals.

  A two-layer graph convolution followed by a row-wise log-softmax.  With `x : 80000 × 128`, weights
  `w₁ : 128 × 64` and `w₂ : 64 × 40`, and `agg` the edge aggregation (a gather of source rows summed into
  destination rows; it is the same host computation in both programs and is never opened here):

      h₁ = agg (x · w₁)                        (`mm1`: a plain matrix product, entry (r, j) = ∑ₖ x(r, k) · w₁(k, j))
      h₂ = agg (max(h₁, 0) · w₂)               (`mm2`: the product of the entrywise positive part with w₂)
      out(r, j) = (h₂(r, j) − M r) − log ∑ₖ exp (h₂(r, k) − M r),   M r = maxₖ h₂(r, k)      (`lsm`)

  The row maximum is taken as a fold of `max` from −∞ over the row's forty entries, which is how both programs
  compute it; nothing below depends on the order of the fold.
-/
import Idealize.ShloMosaic.PureOps.Ideal
import Idealize.ShloMosaic.Lib.ValueIdx

noncomputable section

namespace Cert.Gcn

open Idealize.ShloMosaic Idealize.ShloMosaic.ValueIdx

/-- Entry (r, j) of the product of an 80000 × 128 matrix with a 128 × 64 matrix. -/
def mm1 (x : (⟨2, ![80000, 128]⟩ : Shape).Idx → EReal) (w : (⟨2, ![128, 64]⟩ : Shape).Idx → EReal) :
    (⟨2, ![80000, 64]⟩ : Shape).Idx → EReal :=
  fun i => ∑ k : Fin 128, x (ix2 (i 0) k) * w (ix2 k (i 1))

/-- Entry (r, j) of the product of the positive part of an 80000 × 64 matrix with a 64 × 40 matrix; the zero the
    positive part is taken against is the f32 zero word's value. -/
def mm2 (a : (⟨2, ![80000, 64]⟩ : Shape).Idx → EReal) (w : (⟨2, ![64, 40]⟩ : Shape).Idx → EReal) :
    (⟨2, ![80000, 40]⟩ : Shape).Idx → EReal :=
  fun i => ∑ k : Fin 64, max (a (ix2 (i 0) k)) (Ideal.ofBits .f32 0x00000000#32) * w (ix2 k (i 1))

/-- The maximum of row `r`: the fold of `max` from the f32 word of −∞ over the row's forty entries. -/
def rowMax (a : (⟨2, ![80000, 40]⟩ : Shape).Idx → EReal) (r : Fin 80000) : EReal :=
  (Finset.univ : Finset (Fin 40)).fold max (Ideal.ofBits .f32 0xFF800000#32) (fun k => a (ix2 r k))

/-- The row-wise log-softmax in its shifted form: subtract the row maximum, then subtract the logarithm of the
    row's sum of exponentials of the shifted entries (the sum started from the f32 zero word's value). -/
def lsm (a : (⟨2, ![80000, 40]⟩ : Shape).Idx → EReal) : (⟨2, ![80000, 40]⟩ : Shape).Idx → EReal :=
  fun i => (a i - rowMax a (i 0))
    - Ideal.log (Ideal.ofBits .f32 0x00000000#32 + ∑ k : Fin 40, Ideal.exp (a (ix2 (i 0) k) - rowMax a (i 0)))

end Cert.Gcn

end
-- ==== Proof.KernHost.lean ====
/-
  The idealized kernel program's result, evaluated boundary by boundary.

  The run's buffer contents at the segment boundaries are a fold through @main: launch (`W0`), after region 0 (`W1`),
  after the first host stretch (`W2`), after region 1 (`W3`), after the second host stretch (`W4`), after region 2
  (`W5`).  Each host stretch is the edge aggregation of the table the region before it wrote, read here over an
  arbitrary valuation; each region's output array is, GIVEN the three per-region value facts (`h0`, `h1`, `h2`: the
  region's output array is the specification's function of the arrays the region found), one specification function
  of its inputs.  No stretch and no region writes the edge list or a weight matrix, so those are read back to the launch
  memory.  Composed:  W5 at the result buffer = lsm (agg (mm2 (agg (mm1 x w₁)) w₂)).
-/
import proofs.«127618_j50096498540828_1_alg».proof.Proof.Gen.KernelIdeal.Frame
import proofs.«127618_j50096498540828_1_alg».proof.Proof.KernTerm
import proofs.«127618_j50096498540828_1_alg».proof.Proof.Spec
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

section Stretches
variable {F : FTy → Type} [FloatOps F] (W : Valuation τ sig (Elt F))

/-! ### The first host stretch: it aggregates region 0's table and leaves the edge list and `w₂` alone -/

theorem h1_v14 : after hostOps1 W (Proc.devRef .tc main_v14)
    = Term.agg64 (W (Proc.devRef .tc main_arg1)) (W (Proc.devRef .tc main_v0)) := by
  after_results_simp
  first | done | rfl
theorem h1_arg1 : after hostOps1 W (Proc.devRef .tc main_arg1) = W (Proc.devRef .tc main_arg1) := by
  after_results_simp; first | done | rfl
theorem h1_arg3 : after hostOps1 W (Proc.devRef .tc main_arg3) = W (Proc.devRef .tc main_arg3) := by
  after_results_simp; first | done | rfl

/-! ### The second host stretch: it aggregates region 1's table -/

theorem h2_v29 : after hostOps2 W (Proc.devRef .tc main_v29)
    = Term.agg40 (W (Proc.devRef .tc main_arg1)) (W (Proc.devRef .tc main_v15)) := by
  after_results_simp
  first | done | rfl

end Stretches

/-- Region 0's value fact: its output array is the first matrix product of the arrays it found. -/
abbrev Val0 : Prop := ∀ (V : (c : Dev nD) → (b : Ref sig .tc) → Buf (Elt Ideal) ((c : Thread nD τ).loc b)) (c : Dev nD),
      (Gen.dat0 (F := Ideal) V c).arrAt 2 cfg0.N = Cert.Gcn.mm1 (V c main_arg0) (V c main_arg2)
/-- Region 1's: the second product, of the positive part of the table it found. -/
abbrev Val1 : Prop := ∀ (V : (c : Dev nD) → (b : Ref sig .tc) → Buf (Elt Ideal) ((c : Thread nD τ).loc b)) (c : Dev nD),
      (Gen.dat1 (F := Ideal) V c).arrAt 2 cfg1.N = Cert.Gcn.mm2 (V c main_v14) (V c main_arg3)
/-- Region 2's: the row-wise log-softmax of the table it found. -/
abbrev Val2 : Prop := ∀ (V : (c : Dev nD) → (b : Ref sig .tc) → Buf (Elt Ideal) ((c : Thread nD τ).loc b)) (c : Dev nD),
      (Gen.dat2 (F := Ideal) V c).arrAt 1 cfg2.N = Cert.Gcn.lsm (V c main_v29)

section Chain
variable (m : (ℓ : Loc nD τ sig) → Buf (Elt Ideal) ℓ) (ρ : Dev nD → PrngReg)

/-- After region 0 its output table is the first matrix product of the launched `x` and `w₁`. -/
theorem W1_v0 (h0 : Val0) (c : Dev nD) : W1 m ρ c (Proc.devRef .tc main_v0)
    = Cert.Gcn.mm1 (m ((c : Thread nD τ).loc main_arg0)) (m ((c : Thread nD τ).loc main_arg2)) :=
  (W1_arr m ρ c 2).trans (h0 (V0 m ρ) c)

/-- Region 0 leaves the edge list and `w₂` as launched. -/
theorem W1_arg1 (c : Dev nD) : W1 m ρ c (Proc.devRef .tc main_arg1) = m ((c : Thread nD τ).loc main_arg1) :=
  W1_of_ne m ρ c main_arg1 (by decide)
theorem W1_arg3 (c : Dev nD) : W1 m ρ c (Proc.devRef .tc main_arg3) = m ((c : Thread nD τ).loc main_arg3) :=
  W1_of_ne m ρ c main_arg3 (by decide)

/-- Region 1 is entered with the aggregated first layer, the edge list and `w₂` as launched. -/
theorem W2_v14 (h0 : Val0) (c : Dev nD) : W2 m ρ c (Proc.devRef .tc main_v14)
    = Term.agg64 (F := Ideal) (m ((c : Thread nD τ).loc main_arg1))
        (Cert.Gcn.mm1 (m ((c : Thread nD τ).loc main_arg0)) (m ((c : Thread nD τ).loc main_arg2))) := by
  show after hostOps1 (W1 m ρ c) (Proc.devRef .tc main_v14) = _
  rw [h1_v14, W1_arg1, W1_v0 m ρ h0]
theorem W2_arg1 (c : Dev nD) : W2 m ρ c (Proc.devRef .tc main_arg1) = m ((c : Thread nD τ).loc main_arg1) := by
  show after hostOps1 (W1 m ρ c) (Proc.devRef .tc main_arg1) = _
  rw [h1_arg1, W1_arg1]
theorem W2_arg3 (c : Dev nD) : W2 m ρ c (Proc.devRef .tc main_arg3) = m ((c : Thread nD τ).loc main_arg3) := by
  show after hostOps1 (W1 m ρ c) (Proc.devRef .tc main_arg3) = _
  rw [h1_arg3, W1_arg3]

/-- After region 1 its output table is the second product, of the positive part of the aggregated first layer. -/
theorem W3_v15 (h0 : Val0) (h1 : Val1) (c : Dev nD) : W3 m ρ c (Proc.devRef .tc main_v15)
    = Cert.Gcn.mm2 (Term.agg64 (F := Ideal) (m ((c : Thread nD τ).loc main_arg1))
        (Cert.Gcn.mm1 (m ((c : Thread nD τ).loc main_arg0)) (m ((c : Thread nD τ).loc main_arg2))))
        (m ((c : Thread nD τ).loc main_arg3)) := by
  refine ((W3_arr m ρ c 2).trans (h1 (V2 m ρ) c)).trans ?_
  show Cert.Gcn.mm2 (W2 m ρ c (Proc.devRef .tc main_v14)) (W2 m ρ c (Proc.devRef .tc main_arg3)) = _
  rw [W2_v14 m ρ h0, W2_arg3]
theorem W3_arg1 (c : Dev nD) : W3 m ρ c (Proc.devRef .tc main_arg1) = m ((c : Thread nD τ).loc main_arg1) :=
  (W3_of_ne m ρ c main_arg1 (by decide)).trans (W2_arg1 m ρ c)

/-- Region 2 is entered with the aggregated second layer. -/
theorem W4_v29 (h0 : Val0) (h1 : Val1) (c : Dev nD) : W4 m ρ c (Proc.devRef .tc main_v29)
    = Term.agg40 (F := Ideal) (m ((c : Thread nD τ).loc main_arg1))
        (Cert.Gcn.mm2 (Term.agg64 (F := Ideal) (m ((c : Thread nD τ).loc main_arg1))
          (Cert.Gcn.mm1 (m ((c : Thread nD τ).loc main_arg0)) (m ((c : Thread nD τ).loc main_arg2))))
          (m ((c : Thread nD τ).loc main_arg3))) := by
  show after hostOps2 (W3 m ρ c) (Proc.devRef .tc main_v29) = _
  rw [h2_v29, W3_arg1, W3_v15 m ρ h0 h1]

/-- THE RESULT: the last boundary's contents at the result buffer. -/
theorem W5_v30 (h0 : Val0) (h1 : Val1) (h2 : Val2) (c : Dev nD) : W5 m ρ c (Proc.devRef .tc main_v30)
    = Cert.Gcn.lsm (Term.agg40 (F := Ideal) (m ((c : Thread nD τ).loc main_arg1))
        (Cert.Gcn.mm2 (Term.agg64 (F := Ideal) (m ((c : Thread nD τ).loc main_arg1))
          (Cert.Gcn.mm1 (m ((c : Thread nD τ).loc main_arg0)) (m ((c : Thread nD τ).loc main_arg2))))
          (m ((c : Thread nD τ).loc main_arg3)))) := by
  refine ((W5_arr m ρ c 1).trans (h2 (V4 m ρ) c)).trans ?_
  show Cert.Gcn.lsm (W4 m ρ c (Proc.devRef .tc main_v29)) = _
  rw [W4_v29 m ρ h0 h1]

end Chain

end Cert.KernelIdeal.Host

end
-- ==== Proof.RefTerm.lean ====
/-
  The reference program's host computation, named stage by stage.  Each definition is the composition of host
  operations exactly as the program applies them; the aggregation chains are carried as opaque functions of the
  edge list and a node table, and are never opened by any later module.
-/
import proofs.«127618_j50096498540828_1_alg».proof.Proof.Gen.ReferenceIdeal

noncomputable section

namespace Cert.ReferenceIdeal.Term

open Cert.ReferenceIdeal Cert.ReferenceIdeal.Gen Idealize.ShloMosaic

variable {F : FTy → Type} [FloatOps F]

/-- Row 0 of the edge list as a column of row indices into the node table: a negative entry is wrapped by adding the
    number of nodes, as the host's gather normalizes its indices. -/
def srcIdx (e : (⟨S2x1280000, .i32⟩ : BufTy).Contents (Elt F)) : (⟨S1280000x1, .i32⟩ : BufTy).Contents (Elt F) :=
  broadcastInDim S1280000x1 ![0] bcast_S1280000_S1280000x1_0
    (select
      (cmpi .slt (shapeCast _ (extractStridedSlice S1x1280000 ![0, 0] e slices_S2x1280000_S1x1280000_0_0) shapeCasts_S1x1280000_S1280000)
        (broadcastInDim S1280000 ![] bcast_S_S1280000 (constantI S_ 32 0#32)))
      (addi (shapeCast _ (extractStridedSlice S1x1280000 ![0, 0] e slices_S2x1280000_S1x1280000_0_0) shapeCasts_S1x1280000_S1280000)
        (broadcastInDim S1280000 ![] bcast_S_S1280000 (constantI S_ 32 80000#32)))
      (shapeCast _ (extractStridedSlice S1x1280000 ![0, 0] e slices_S2x1280000_S1x1280000_0_0) shapeCasts_S1x1280000_S1280000))

/-- Row 1 of the edge list as a column of destination rows. -/
def dstIdx (e : (⟨S2x1280000, .i32⟩ : BufTy).Contents (Elt F)) : (⟨S1280000x1, .i32⟩ : BufTy).Contents (Elt F) :=
  broadcastInDim S1280000x1 ![0] bcast_S1280000_S1280000x1_0
    (shapeCast _ (extractStridedSlice S1x1280000 ![1, 0] e slices_S2x1280000_S1x1280000_1_0) shapeCasts_S1x1280000_S1280000)

/-- The edge aggregation of a 64-column node table: every edge's source row, added into the edge's destination row
    of a table of zeros. -/
def agg64 (e : (⟨S2x1280000, .i32⟩ : BufTy).Contents (Elt F)) (h : (⟨S80000x64, .f32⟩ : BufTy).Contents (Elt F)) :
    (⟨S80000x64, .f32⟩ : BufTy).Contents (Elt F) :=
  Host.scatterAdd scatter_S80000x64_S1280000x1_S1280000x64_1_0_0_1
    (broadcastInDim S80000x64 ![] bcast_S_S80000x64 (constant S_ .f32 0x00000000#32)) (dstIdx e)
    (Host.gather gather_S80000x64_S1280000x1_S1280000x64_1_0_n_n_0_1_164 h (srcIdx e))

/-- The same aggregation of a 40-column node table. -/
def agg40 (e : (⟨S2x1280000, .i32⟩ : BufTy).Contents (Elt F)) (h : (⟨S80000x40, .f32⟩ : BufTy).Contents (Elt F)) :
    (⟨S80000x40, .f32⟩ : BufTy).Contents (Elt F) :=
  Host.scatterAdd scatter_S80000x40_S1280000x1_S1280000x40_1_0_0_1
    (broadcastInDim S80000x40 ![] bcast_S_S80000x40 (constant S_ .f32 0x00000000#32)) (dstIdx e)
    (Host.gather gather_S80000x40_S1280000x1_S1280000x40_1_0_n_n_0_1_140 h (srcIdx e))

/-- The entrywise positive part, as the host takes it: the maximum with a table of zeros. -/
def relu (a : (⟨S80000x64, .f32⟩ : BufTy).Contents (Elt F)) : (⟨S80000x64, .f32⟩ : BufTy).Contents (Elt F) :=
  maximumf a (broadcastInDim S80000x64 ![] bcast_S_S80000x64 (constant S_ .f32 0x00000000#32))

/-- Each entry minus its row's maximum, as the host computes it: the row maxima reduced from −∞, joined once more with
    −∞, and broadcast back along the row. -/
def shifted (a : (⟨S80000x40, .f32⟩ : BufTy).Contents (Elt F)) : (⟨S80000x40, .f32⟩ : BufTy).Contents (Elt F) :=
  subf a (broadcastInDim S80000x40 ![0, 1] bcast_S80000x1_S80000x40_0_1 (broadcastInDim S80000x1 ![0] bcast_S80000_S80000x1_0
    (maximumf (broadcastInDim S80000 ![] bcast_S_S80000 (constant S_ .f32 0xFF800000#32))
      (Host.reduce FloatOps.maximumf a (constant S_ .f32 0xFF800000#32) reducesTo_S80000x40_S80000_d1 h_S_))))

/-- The host's row-wise log-softmax: the shifted entries minus the logarithm of their row's sum of exponentials. -/
def lsmRef (a : (⟨S80000x40, .f32⟩ : BufTy).Contents (Elt F)) : (⟨S80000x40, .f32⟩ : BufTy).Contents (Elt F) :=
  subf (shifted a) (broadcastInDim S80000x40 ![0, 1] bcast_S80000x1_S80000x40_0_1 (Host.log (broadcastInDim S80000x1 ![0] bcast_S80000_S80000x1_0
    (Host.reduceAdd (Host.exp (shifted a)) (constant S_ .f32 0x00000000#32) reducesTo_S80000x40_S80000_d1 h_S_))))

/-- The whole reference: two aggregated layers and the log-softmax, as one composition of the named stages. -/
def whole (x : (⟨S80000x128, .f32⟩ : BufTy).Contents (Elt F)) (e : (⟨S2x1280000, .i32⟩ : BufTy).Contents (Elt F))
    (w1 : (⟨S128x64, .f32⟩ : BufTy).Contents (Elt F)) (w2 : (⟨S64x40, .f32⟩ : BufTy).Contents (Elt F)) :
    (⟨S80000x40, .f32⟩ : BufTy).Contents (Elt F) :=
  lsmRef (agg40 e (Host.dotGeneral dot_S80000x64_S64x40_S80000x40_1_0_0_1_n_n none
    (relu (agg64 e (Host.dotGeneral dot_S80000x128_S128x64_S80000x64_1_0_0_1_n_n none x w1))) w2))

end Cert.ReferenceIdeal.Term

end
-- ==== Proof.RefRead.lean ====
/-
  The reference program's run, read back in stages.

  Its @main is 54 host operations in a row.  They fall into six consecutive groups, each computing one named stage of
  `Term.whole` from buffers written before it: the first matrix product, the 64-column edge aggregation, the positive
  part, the second matrix product, the 40-column edge aggregation, and the log-softmax.  Each group is read over an
  ARBITRARY valuation of the buffers (so every term stays one stage deep), together with the facts that it leaves the
  edge list and the second weight matrix alone; the six readings compose to: the result buffer ends at `Term.whole`
  of the four arguments' launch contents.
-/
import proofs.«127618_j50096498540828_1_alg».proof.Proof.RefRun
import proofs.«127618_j50096498540828_1_alg».proof.Proof.RefTerm

noncomputable section

namespace Cert.ReferenceIdeal.RefRead

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Folding the operations of a concatenation is folding the first part, then the second. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Moving a value to an equal type and back is the identity (the operations of an outlined function carry each
    value to its buffer's type and back). -/
theorem cast_roundtrip {A B : Sort _} (h : A = B) (h' : B = A) (v : B) : cast h (cast h' v) = v := by
  subst h; rfl

/-- The `n` operations of @main from position `i` on. -/
abbrev seg (i n : Nat) : List (HloOp τ sig (Elt F)) := ((ops (F := F)).drop i).take n

set_option maxRecDepth 8192 in
/-- @main's operations are the six groups in order. -/
theorem ops_eq : (ops : List (HloOp τ sig (Elt F))) = seg 0 1 ++ (seg 1 17 ++ (seg 18 3 ++ (seg 21 1 ++ (seg 22 17 ++ seg 39 15)))) := rfl

section Stages
variable (W : Valuation τ sig (Elt F))

/-! ### What each group writes, from the valuation it starts at -/

set_option maxRecDepth 8192 in
theorem s0_v0 : after (seg 0 1) W (Proc.devRef .tc main_v0)
    = Host.dotGeneral dot_S80000x128_S128x64_S80000x64_1_0_0_1_n_n none (W (Proc.devRef .tc main_arg0)) (W (Proc.devRef .tc main_arg2)) := by
  dsimp only [seg, ops, List.drop, List.take]
  after_results_simp
  first | done | rfl

set_option maxRecDepth 8192 in
theorem s1_v14 : after (seg 1 17) W (Proc.devRef .tc main_v14)
    = Term.agg64 (W (Proc.devRef .tc main_arg1)) (W (Proc.devRef .tc main_v0)) := by
  dsimp only [seg, ops, List.drop, List.take]
  after_results_simp
  first | done | rfl

set_option maxRecDepth 8192 in
theorem s2_v15 : after (seg 18 3) W (Proc.devRef .tc main_v15) = Term.relu (W (Proc.devRef .tc main_v14)) := by
  dsimp only [seg, ops, List.drop, List.take]
  after_results_simp
  first | done | rfl

set_option maxRecDepth 8192 in
theorem s3_v16 : after (seg 21 1) W (Proc.devRef .tc main_v16)
    = Host.dotGeneral dot_S80000x64_S64x40_S80000x40_1_0_0_1_n_n none (W (Proc.devRef .tc main_v15)) (W (Proc.devRef .tc main_arg3)) := by
  dsimp only [seg, ops, List.drop, List.take]
  after_results_simp
  first | done | rfl

set_option maxRecDepth 8192 in
theorem s4_v30 : after (seg 22 17) W (Proc.devRef .tc main_v30)
    = Term.agg40 (W (Proc.devRef .tc main_arg1)) (W (Proc.devRef .tc main_v16)) := by
  dsimp only [seg, ops, List.drop, List.take]
  after_results_simp
  first | done | rfl

set_option maxRecDepth 8192 in
theorem s5_v31 : after (seg 39 15) W (Proc.devRef .tc main_v31) = Term.lsmRef (W (Proc.devRef .tc main_v30)) := by
  dsimp only [seg, ops, List.drop, List.take]
  after_results_simp
  simp only [cast_roundtrip]
  rfl

/-! ### What each group leaves alone: the edge list, and the second weight matrix until it is used -/

set_option maxRecDepth 8192 in
theorem s0_arg1 : after (seg 0 1) W (Proc.devRef .tc main_arg1) = W (Proc.devRef .tc main_arg1) := by
  dsimp only [seg, ops, List.drop, List.take]; after_results_simp; first | done | rfl
set_option maxRecDepth 8192 in
theorem s0_arg3 : after (seg 0 1) W (Proc.devRef .tc main_arg3) = W (Proc.devRef .tc main_arg3) := by
  dsimp only [seg, ops, List.drop, List.take]; after_results_simp; first | done | rfl
set_option maxRecDepth 8192 in
theorem s1_arg1 : after (seg 1 17) W (Proc.devRef .tc main_arg1) = W (Proc.devRef .tc main_arg1) := by
  dsimp only [seg, ops, List.drop, List.take]; after_results_simp; first | done | rfl
set_option maxRecDepth 8192 in
theorem s1_arg3 : after (seg 1 17) W (Proc.devRef .tc main_arg3) = W (Proc.devRef .tc main_arg3) := by
  dsimp only [seg, ops, List.drop, List.take]; after_results_simp; first | done | rfl
set_option maxRecDepth 8192 in
theorem s2_arg1 : after (seg 18 3) W (Proc.devRef .tc main_arg1) = W (Proc.devRef .tc main_arg1) := by
  dsimp only [seg, ops, List.drop, List.take]; after_results_simp; first | done | rfl
set_option maxRecDepth 8192 in
theorem s2_arg3 : after (seg 18 3) W (Proc.devRef .tc main_arg3) = W (Proc.devRef .tc main_arg3) := by
  dsimp only [seg, ops, List.drop, List.take]; after_results_simp; first | done | rfl
set_option maxRecDepth 8192 in
theorem s3_arg1 : after (seg 21 1) W (Proc.devRef .tc main_arg1) = W (Proc.devRef .tc main_arg1) := by
  dsimp only [seg, ops, List.drop, List.take]; after_results_simp; first | done | rfl

end Stages

/-- The result buffer after all 54 operations, from any valuation: `Term.whole` of the four arguments there. -/
theorem after_v31 (W : Valuation τ sig (Elt F)) :
    after ops W (Proc.devRef .tc main_v31)
      = Term.whole (W (Proc.devRef .tc main_arg0)) (W (Proc.devRef .tc main_arg1)) (W (Proc.devRef .tc main_arg2)) (W (Proc.devRef .tc main_arg3)) := by
  rw [ops_eq, after_append, after_append, after_append, after_append, after_append]
  rw [s5_v31, s4_v30, s3_arg1, s3_v16, s2_arg1, s2_v15, s2_arg3, s1_arg1, s1_v14, s1_arg3, s0_arg1, s0_v0, s0_arg3]
  rfl

set_option maxRecDepth 8192 in
/-- No operation writes an argument's buffer. -/
theorem after_args (W : Valuation τ sig (Elt F)) :
    after ops W (Proc.devRef .tc main_arg0) = W (Proc.devRef .tc main_arg0)
    ∧ after ops W (Proc.devRef .tc main_arg1) = W (Proc.devRef .tc main_arg1)
    ∧ after ops W (Proc.devRef .tc main_arg2) = W (Proc.devRef .tc main_arg2)
    ∧ after ops W (Proc.devRef .tc main_arg3) = W (Proc.devRef .tc main_arg3) := by
  refine ⟨?_, ?_, ?_, ?_⟩ <;> (after_results_simp; first | done | rfl)

/-- THE REFERENCE'S RUN: every weakly fair execution of @main terminates with the result buffer at `Term.whole` of the
    arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
        = Term.whole (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c main_v31).trans ((after_v31 _).trans rfl),
     (h c main_arg0).trans ((after_args _).1.trans rfl),
     (h c main_arg1).trans ((after_args _).2.1.trans rfl),
     (h c main_arg2).trans ((after_args _).2.2.1.trans rfl),
     (h c main_arg3).trans ((after_args _).2.2.2.trans rfl)⟩)
    (run_after m ρ)

end Cert.ReferenceIdeal.RefRead

end
-- ==== Proof.RefDot.lean ====
import proofs.«127618_j50096498540828_1_alg».proof.Proof.RefTerm
import proofs.«127618_j50096498540828_1_alg».proof.Proof.Spec
import Idealize.ShloMosaic.PureOps.Ideal.Laws
import Idealize.ShloMosaic.Lib.ValueIdx

noncomputable section

namespace Cert.ReferenceIdeal.Stages

open Cert.ReferenceIdeal Cert.ReferenceIdeal.Gen Idealize.ShloMosaic Idealize.ShloMosaic.ValueIdx

/-! ## The first product: 80000 × 128 by 128 × 64

The dimension numbers contract axis 1 of the left operand with axis 0 of the right, with no batch axes.  So at the
result index (r, j) and contraction index k the left operand is read at (r, k) and the right at (k, j). -/

/-- Left index, axis 0: the result's row. -/
theorem lhs1_0 (i : S80000x64.Idx) (q : dot_S80000x128_S128x64_S80000x64_1_0_0_1_n_n.contr.Idx) : (dot_S80000x128_S128x64_S80000x64_1_0_0_1_n_n.lhsIdx i q 0).val = (i 0).val := by
  unfold DotDims.lhsIdx
  rw [dif_neg (show ¬(0 : Fin S80000x128.rank) ∈ dot_S80000x128_S128x64_S80000x64_1_0_0_1_n_n.lhsBatch by decide),
    dif_pos (show (0 : Fin S80000x128.rank) ∈ dot_S80000x128_S128x64_S80000x64_1_0_0_1_n_n.lhsNonContracting by decide)]
  rfl

/-- Left index, axis 1: the contraction coordinate. -/
theorem lhs1_1 (i : S80000x64.Idx) (q : dot_S80000x128_S128x64_S80000x64_1_0_0_1_n_n.contr.Idx) : (dot_S80000x128_S128x64_S80000x64_1_0_0_1_n_n.lhsIdx i q 1).val = (q ⟨0, by decide⟩).val :=
  dot_S80000x128_S128x64_S80000x64_1_0_0_1_n_n.lhsIdx_val_of_single rfl i q

/-- Right index, axis 0: the contraction coordinate. -/
theorem rhs1_0 (i : S80000x64.Idx) (q : dot_S80000x128_S128x64_S80000x64_1_0_0_1_n_n.contr.Idx) : (dot_S80000x128_S128x64_S80000x64_1_0_0_1_n_n.rhsIdx i q 0).val = (q ⟨0, by decide⟩).val :=
  dot_S80000x128_S128x64_S80000x64_1_0_0_1_n_n.rhsIdx_val_of_single rfl i q

/-- Right index, axis 1: the result's column. -/
theorem rhs1_1 (i : S80000x64.Idx) (q : dot_S80000x128_S128x64_S80000x64_1_0_0_1_n_n.contr.Idx) : (dot_S80000x128_S128x64_S80000x64_1_0_0_1_n_n.rhsIdx i q 1).val = (i 1).val := by
  unfold DotDims.rhsIdx
  rw [dif_neg (show ¬(1 : Fin S128x64.rank) ∈ dot_S80000x128_S128x64_S80000x64_1_0_0_1_n_n.rhsBatch by decide),
    dif_pos (show (1 : Fin S128x64.rank) ∈ dot_S80000x128_S128x64_S80000x64_1_0_0_1_n_n.rhsNonContracting by decide)]
  rfl

/-- At the result index (r, j) and the k-th contraction index the left operand is read at (r, k). -/
theorem lhs1 (i : S80000x64.Idx) (k : Fin 128) :
    dot_S80000x128_S128x64_S80000x64_1_0_0_1_n_n.lhsIdx i ((ValueIdx.contrEquiv1 dot_S80000x128_S128x64_S80000x64_1_0_0_1_n_n 128 rfl rfl).symm k) = ix2 (i 0) k := by
  have hk := ValueIdx.contrEquiv1_symm_val dot_S80000x128_S128x64_S80000x64_1_0_0_1_n_n 128 rfl rfl k
  exact funext fun a => Fin.ext (by
    match a with
    | ⟨0, _⟩ => exact lhs1_0 _ _
    | ⟨1, _⟩ => exact (lhs1_1 _ _).trans hk)

/-- … and the right operand at (k, j). -/
theorem rhs1 (i : S80000x64.Idx) (k : Fin 128) :
    dot_S80000x128_S128x64_S80000x64_1_0_0_1_n_n.rhsIdx i ((ValueIdx.contrEquiv1 dot_S80000x128_S128x64_S80000x64_1_0_0_1_n_n 128 rfl rfl).symm k) = ix2 k (i 1) := by
  have hk := ValueIdx.contrEquiv1_symm_val dot_S80000x128_S128x64_S80000x64_1_0_0_1_n_n 128 rfl rfl k
  exact funext fun a => Fin.ext (by
    match a with
    | ⟨0, _⟩ => exact (rhs1_0 _ _).trans hk
    | ⟨1, _⟩ => exact rhs1_1 _ _)

/-- The host's product of the two operands is the plain matrix product: at the extended reals a `dot_general` is the
    sum over its contraction index set, which for one contracted axis of size 128 is the sum over `Fin 128`. -/
theorem dot1_eq (x : (⟨S80000x128, .f32⟩ : BufTy).Contents (Elt Ideal)) (w : (⟨S128x64, .f32⟩ : BufTy).Contents (Elt Ideal)) :
    Host.dotGeneral (F := Ideal) (φ₁ := .f32) (φ₂ := .f32) dot_S80000x128_S128x64_S80000x64_1_0_0_1_n_n none x w = Cert.Gcn.mm1 x w := by
  funext i
  simp only [Host.dotGeneral]
  rw [Ideal.dotGeneral_apply, ← Equiv.sum_comp (ValueIdx.contrEquiv1 dot_S80000x128_S128x64_S80000x64_1_0_0_1_n_n 128 rfl rfl).symm]
  unfold Cert.Gcn.mm1
  refine Finset.sum_congr rfl fun k _ => ?_
  rw [lhs1, rhs1]
  rfl

/-! ## The second product: the positive part of an 80000 × 64 table by 64 × 40

Same dimension numbers at the smaller extents; the left operand is first replaced by its entrywise maximum with a
table that is the zero word's value everywhere. -/

/-- Left index, axis 0: the result's row. -/
theorem lhs2_0 (i : S80000x40.Idx) (q : dot_S80000x64_S64x40_S80000x40_1_0_0_1_n_n.contr.Idx) : (dot_S80000x64_S64x40_S80000x40_1_0_0_1_n_n.lhsIdx i q 0).val = (i 0).val := by
  unfold DotDims.lhsIdx
  rw [dif_neg (show ¬(0 : Fin S80000x64.rank) ∈ dot_S80000x64_S64x40_S80000x40_1_0_0_1_n_n.lhsBatch by decide),
    dif_pos (show (0 : Fin S80000x64.rank) ∈ dot_S80000x64_S64x40_S80000x40_1_0_0_1_n_n.lhsNonContracting by decide)]
  rfl

/-- Left index, axis 1: the contraction coordinate. -/
theorem lhs2_1 (i : S80000x40.Idx) (q : dot_S80000x64_S64x40_S80000x40_1_0_0_1_n_n.contr.Idx) : (dot_S80000x64_S64x40_S80000x40_1_0_0_1_n_n.lhsIdx i q 1).val = (q ⟨0, by decide⟩).val :=
  dot_S80000x64_S64x40_S80000x40_1_0_0_1_n_n.lhsIdx_val_of_single rfl i q

/-- Right index, axis 0: the contraction coordinate. -/
theorem rhs2_0 (i : S80000x40.Idx) (q : dot_S80000x64_S64x40_S80000x40_1_0_0_1_n_n.contr.Idx) : (dot_S80000x64_S64x40_S80000x40_1_0_0_1_n_n.rhsIdx i q 0).val = (q ⟨0, by decide⟩).val :=
  dot_S80000x64_S64x40_S80000x40_1_0_0_1_n_n.rhsIdx_val_of_single rfl i q

/-- Right index, axis 1: the result's column. -/
theorem rhs2_1 (i : S80000x40.Idx) (q : dot_S80000x64_S64x40_S80000x40_1_0_0_1_n_n.contr.Idx) : (dot_S80000x64_S64x40_S80000x40_1_0_0_1_n_n.rhsIdx i q 1).val = (i 1).val := by
  unfold DotDims.rhsIdx
  rw [dif_neg (show ¬(1 : Fin S64x40.rank) ∈ dot_S80000x64_S64x40_S80000x40_1_0_0_1_n_n.rhsBatch by decide),
    dif_pos (show (1 : Fin S64x40.rank) ∈ dot_S80000x64_S64x40_S80000x40_1_0_0_1_n_n.rhsNonContracting by decide)]
  rfl

/-- At the result index (r, j) and the k-th contraction index the left operand is read at (r, k). -/
theorem lhs2 (i : S80000x40.Idx) (k : Fin 64) :
    dot_S80000x64_S64x40_S80000x40_1_0_0_1_n_n.lhsIdx i ((ValueIdx.contrEquiv1 dot_S80000x64_S64x40_S80000x40_1_0_0_1_n_n 64 rfl rfl).symm k) = ix2 (i 0) k := by
  have hk := ValueIdx.contrEquiv1_symm_val dot_S80000x64_S64x40_S80000x40_1_0_0_1_n_n 64 rfl rfl k
  exact funext fun a => Fin.ext (by
    match a with
    | ⟨0, _⟩ => exact lhs2_0 _ _
    | ⟨1, _⟩ => exact (lhs2_1 _ _).trans hk)

/-- … and the right operand at (k, j). -/
theorem rhs2 (i : S80000x40.Idx) (k : Fin 64) :
    dot_S80000x64_S64x40_S80000x40_1_0_0_1_n_n.rhsIdx i ((ValueIdx.contrEquiv1 dot_S80000x64_S64x40_S80000x40_1_0_0_1_n_n 64 rfl rfl).symm k) = ix2 k (i 1) := by
  have hk := ValueIdx.contrEquiv1_symm_val dot_S80000x64_S64x40_S80000x40_1_0_0_1_n_n 64 rfl rfl k
  exact funext fun a => Fin.ext (by
    match a with
    | ⟨0, _⟩ => exact (rhs2_0 _ _).trans hk
    | ⟨1, _⟩ => exact rhs2_1 _ _)

/-- The positive part at an index: the broadcast of a rank-0 constant reads that constant wherever it is read (a
    rank-0 operand has a single index), and the entrywise maximum at the extended reals is `max`. -/
theorem relu_apply (a : (⟨S80000x64, .f32⟩ : BufTy).Contents (Elt Ideal)) (j : S80000x64.Idx) :
    Term.relu (F := Ideal) a j = max (a j) (Ideal.ofBits .f32 0x00000000#32) := by
  unfold Term.relu
  show max (a j) (broadcastInDim S80000x64 ![] bcast_S_S80000x64 (constant (F := Ideal) S_ .f32 0x00000000#32) j) = _
  refine congrArg (max (a j)) ?_
  unfold broadcastInDim
  rfl

/-- The host's product of the positive part with the second weight matrix is `mm2`: the sum over the one contracted
    axis of size 64, each left factor read through the positive part. -/
theorem dot2_eq (a : (⟨S80000x64, .f32⟩ : BufTy).Contents (Elt Ideal)) (w : (⟨S64x40, .f32⟩ : BufTy).Contents (Elt Ideal)) :
    Host.dotGeneral (F := Ideal) (φ₁ := .f32) (φ₂ := .f32) dot_S80000x64_S64x40_S80000x40_1_0_0_1_n_n none (Term.relu (F := Ideal) a) w = Cert.Gcn.mm2 a w := by
  funext i
  simp only [Host.dotGeneral]
  rw [Ideal.dotGeneral_apply, ← Equiv.sum_comp (ValueIdx.contrEquiv1 dot_S80000x64_S64x40_S80000x40_1_0_0_1_n_n 64 rfl rfl).symm]
  unfold Cert.Gcn.mm2
  refine Finset.sum_congr rfl fun k _ => ?_
  rw [lhs2, rhs2]
  exact congrArg (· * w (ix2 k (i 1))) (relu_apply a _)

end Cert.ReferenceIdeal.Stages

end
-- ==== Proof.RefLsm.lean ====
/-
  The reference's row-wise log-softmax, read index by index, is the specification's `lsm`.

  The host takes each row's maximum as a reduction of `max` from −∞ over the forty columns, joins it once more with −∞
  (a fold of `max` is at least the value it starts from, so this changes nothing), and broadcasts it back along the row
  through a one-column table; the row's sum of exponentials is a reduction of `+` from the zero word over the same
  columns, broadcast back the same way after the logarithm.
-/
import proofs.«127618_j50096498540828_1_alg».proof.Proof.RefTerm
import proofs.«127618_j50096498540828_1_alg».proof.Proof.Spec
import Idealize.ShloMosaic.PureOps.Ideal.Laws
import Idealize.ShloMosaic.Lib.ValueIdx
import Idealize.ShloMosaic.Lib.Pipeline.Value

noncomputable section

namespace Cert.ReferenceIdeal.Stages

open Cert.ReferenceIdeal Cert.ReferenceIdeal.Gen Idealize.ShloMosaic Idealize.ShloMosaic.ValueIdx

namespace Lsm

/-- The reduction fact in the form that names the inserted index. -/
theorem red40 : S80000x40.Reduces [1] S80000 := by decide

/-- Row `j` of the table with the column coordinate `k` inserted is the index `(j 0, k)`. -/
theorem lift_eq (j : S80000.Idx) (k : Fin 40) : red40.lift j k = ix2 (j 0) k :=
  funext fun c => Fin.ext (by match c with | ⟨0, _⟩ => rfl | ⟨1, _⟩ => rfl)

/-- The host's maximum over axis 1 from the −∞ word, at row `j`: the fold of `max` over the row's forty entries. -/
theorem hostMax_apply (a : (⟨S80000x40, .f32⟩ : BufTy).Contents (Elt Ideal)) (j : S80000.Idx) :
    (Host.reduce (FloatOps.maximumf (F := Ideal) (φ := .f32)) a (constant (F := Ideal) S_ .f32 0xFF800000#32) reducesTo_S80000x40_S80000_d1 h_S_ j : EReal)
      = Cert.Gcn.rowMax a (j 0) := by
  rw [Host.reduce_eq_fold_single (FloatOps.maximumf (F := Ideal) (φ := .f32)) a _ reducesTo_S80000x40_S80000_d1 red40 h_S_ j]
  unfold Cert.Gcn.rowMax
  have e : (a ∘ red40.lift j) = fun k : Fin 40 => a (ix2 (j 0) k) := funext fun k => congrArg a (lift_eq j k)
  rw [e]
  rfl

/-- The host's sum over axis 1 from the zero word, at row `j`: the zero word's value plus the sum of the row's forty entries. -/
theorem hostSum_apply (y : (⟨S80000x40, .f32⟩ : BufTy).Contents (Elt Ideal)) (j : S80000.Idx) :
    (Host.reduceAdd y (constant (F := Ideal) S_ .f32 0x00000000#32) reducesTo_S80000x40_S80000_d1 h_S_ j : EReal)
      = Ideal.ofBits .f32 0x00000000#32 + ∑ k : Fin 40, y (ix2 (j 0) k) := by
  simp only [Host.reduceAdd, Ideal.hostReduceAdd_def]
  rw [Ideal.hostReduceAdd_single reducesTo_S80000x40_S80000_d1 red40]
  refine congrArg₂ (· + ·) rfl (Finset.sum_congr rfl fun k _ => ?_)
  exact congrArg y (lift_eq j k)

/-- A one-column table broadcast along the rows reads, at `i`, the entry of row `i 0`. -/
theorem bcastCols_apply (z : (⟨S80000x1, .f32⟩ : BufTy).Contents (Elt Ideal)) (i : S80000x40.Idx) :
    broadcastInDim S80000x40 ![0, 1] bcast_S80000x1_S80000x40_0_1 z i = z (ix2 (i 0) (0 : Fin 1)) :=
  broadcastInDim_apply _ bcast_S80000x1_S80000x40_0_1 z i (ix2 (i 0) (0 : Fin 1)) (fun a => match a with
    | ⟨0, _⟩ => by show (i 0).val = if (80000 : Nat) = 1 then 0 else (i 0).val; rw [if_neg (by decide)]
    | ⟨1, _⟩ => by show 0 = if (1 : Nat) = 1 then 0 else (i 1).val; rw [if_pos rfl])

/-- A column of row values made a one-column table reads, at `i`, the value of row `i 0`. -/
theorem bcastCol_apply (y : (⟨S80000, .f32⟩ : BufTy).Contents (Elt Ideal)) (i : S80000x1.Idx) :
    broadcastInDim S80000x1 ![0] bcast_S80000_S80000x1_0 y i = y (ix1 (i 0)) :=
  broadcastInDim_apply _ bcast_S80000_S80000x1_0 y i (ix1 (i 0)) (fun a => match a with
    | ⟨0, _⟩ => by show (i 0).val = if (80000 : Nat) = 1 then 0 else (i 0).val; rw [if_neg (by decide)])

/-- The −∞ word broadcast to a column reads −∞ at every row. -/
theorem bcastNegInf_apply (j : S80000.Idx) :
    broadcastInDim S80000 ![] bcast_S_S80000 (constant (F := Ideal) S_ .f32 0xFF800000#32) j = Ideal.ofBits .f32 0xFF800000#32 :=
  (broadcastInDim_apply _ bcast_S_S80000 _ j ix0 (fun a => a.elim0)).trans (constant_apply _ _)

/-- A fold of `max` is at least the value it starts from, so joining it once more with that value changes nothing. -/
theorem max_init_rowMax (a : (⟨S80000x40, .f32⟩ : BufTy).Contents (Elt Ideal)) (r : Fin 80000) :
    max (Ideal.ofBits .f32 0xFF800000#32) (Cert.Gcn.rowMax a r) = Cert.Gcn.rowMax a r :=
  max_eq_right ((Finset.le_fold_max _).2 (Or.inl le_rfl))

/-- The host's logarithm and exponential at an index are the extended reals' of the entry. -/
theorem hostLog_apply {s : Shape} (z : FVec Ideal s .f32) (i : s.Idx) : Host.log z i = Ideal.log (z i) := rfl
theorem hostExp_apply {s : Shape} (z : FVec Ideal s .f32) (i : s.Idx) : Host.exp z i = Ideal.exp (z i) := rfl

/-- The shifted table at an index: the entry minus its row's maximum. -/
theorem shifted_apply (a : (⟨S80000x40, .f32⟩ : BufTy).Contents (Elt Ideal)) (i : S80000x40.Idx) :
    Term.shifted (F := Ideal) a i = a i - Cert.Gcn.rowMax a (i 0) := by
  unfold Term.shifted
  refine (subf_apply a _ i).trans ?_
  refine congrArg (a i - ·) ?_
  refine (bcastCols_apply _ i).trans ?_
  refine (bcastCol_apply _ _).trans ?_
  refine (maximumf_apply _ _ _).trans ?_
  refine (congrArg₂ max (bcastNegInf_apply _) (hostMax_apply a (ix1 (i 0)))).trans ?_
  exact max_init_rowMax a (i 0)

end Lsm

open Lsm

/-- The host's row-wise log-softmax is the specification's, index by index. -/
theorem lsm_eq (a : (⟨S80000x40, .f32⟩ : BufTy).Contents (Elt Ideal)) :
    Term.lsmRef (F := Ideal) a = Cert.Gcn.lsm a := by
  funext i
  unfold Term.lsmRef Cert.Gcn.lsm
  refine (subf_apply _ _ i).trans ?_
  refine congrArg₂ (· - ·) (shifted_apply a i) ?_
  refine (bcastCols_apply _ i).trans ?_
  refine (hostLog_apply _ _).trans ?_
  refine congrArg Ideal.log ?_
  refine (bcastCol_apply _ _).trans ?_
  refine (hostSum_apply _ _).trans ?_
  refine congrArg₂ (· + ·) rfl (Finset.sum_congr rfl fun k _ => ?_)
  refine (hostExp_apply _ _).trans ?_
  exact congrArg Ideal.exp (shifted_apply a (ix2 (i 0) k))

end Cert.ReferenceIdeal.Stages

end
-- ==== Proof.Bridge.lean ====
/-
  The two idealized programs compute one function.

  Kernel side: the run ends with the result buffer at  lsm (agg₄₀ e (mm2 (agg₆₄ e (mm1 x w₁)) w₂))  of the launched
  arguments (the run with its result named; the boundary contents evaluated region by region, given the three regions'
  value facts).  Reference side: its run ends at `Term.whole` of its arguments, and `Term.whole` is the same expression:
  the host's two matrix products are `mm1` and — after the positive part — `mm2`, its log-softmax chain is `lsm`, and
  the edge aggregation is literally the same composition of host operations in both programs (the two programs' shape
  records differ only in the namespace they were printed in).  No step uses a law that needs finite inputs: the
  precondition is not opened.
-/
import proofs.«127618_j50096498540828_1_alg».proof.Defs
import proofs.«127618_j50096498540828_1_alg».proof.Proof.KernRun
import proofs.«127618_j50096498540828_1_alg».proof.Proof.KernHost
import proofs.«127618_j50096498540828_1_alg».proof.Proof.RefRead
import proofs.«127618_j50096498540828_1_alg».proof.Proof.RefDot
import proofs.«127618_j50096498540828_1_alg».proof.Proof.RefLsm
import proofs.«127618_j50096498540828_1_alg».proof.Proof.Gen.Pre_finite_inputs

noncomputable section

namespace Cert.Proof.Bridge

open Idealize.ShloMosaic Idealize.ShloMosaic.TcCoe Idealize.SL.Sem

/-- The 64-column edge aggregation is one function, whichever program's records spell it. -/
theorem agg64_eq (e : (⟨Cert.KernelIdeal.S2x1280000, .i32⟩ : BufTy).Contents (Elt Ideal))
    (h : (⟨Cert.KernelIdeal.S80000x64, .f32⟩ : BufTy).Contents (Elt Ideal)) :
    Cert.KernelIdeal.Term.agg64 (F := Ideal) e h = Cert.ReferenceIdeal.Term.agg64 (F := Ideal) e h := rfl

/-- The 40-column edge aggregation likewise. -/
theorem agg40_eq (e : (⟨Cert.KernelIdeal.S2x1280000, .i32⟩ : BufTy).Contents (Elt Ideal))
    (h : (⟨Cert.KernelIdeal.S80000x40, .f32⟩ : BufTy).Contents (Elt Ideal)) :
    Cert.KernelIdeal.Term.agg40 (F := Ideal) e h = Cert.ReferenceIdeal.Term.agg40 (F := Ideal) e h := rfl

/-- The reference's whole computation, stage by stage, is the specification's. -/
theorem whole_eq (x : (⟨Cert.ReferenceIdeal.S80000x128, .f32⟩ : BufTy).Contents (Elt Ideal))
    (e : (⟨Cert.ReferenceIdeal.S2x1280000, .i32⟩ : BufTy).Contents (Elt Ideal))
    (w1 : (⟨Cert.ReferenceIdeal.S128x64, .f32⟩ : BufTy).Contents (Elt Ideal))
    (w2 : (⟨Cert.ReferenceIdeal.S64x40, .f32⟩ : BufTy).Contents (Elt Ideal)) :
    Cert.ReferenceIdeal.Term.whole (F := Ideal) x e w1 w2
      = Cert.Gcn.lsm (Cert.ReferenceIdeal.Term.agg40 (F := Ideal) e
          (Cert.Gcn.mm2 (Cert.ReferenceIdeal.Term.agg64 (F := Ideal) e (Cert.Gcn.mm1 x w1)) w2)) := by
  unfold Cert.ReferenceIdeal.Term.whole
  rw [Cert.ReferenceIdeal.Stages.dot1_eq, Cert.ReferenceIdeal.Stages.dot2_eq, Cert.ReferenceIdeal.Stages.lsm_eq]

/-- The kernel program's run with its result evaluated: given the three regions' value facts. -/
theorem kernel_run (h0 : Cert.KernelIdeal.Host.Val0) (h1 : Cert.KernelIdeal.Host.Val1) (h2 : Cert.KernelIdeal.Host.Val2)
    (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v30)
          = Cert.Gcn.lsm (Cert.KernelIdeal.Term.agg40 (F := Ideal) (m ((c.tc : Thread Cert.KernelIdeal.nD Cert.KernelIdeal.τ).loc Cert.KernelIdeal.main_arg1))
              (Cert.Gcn.mm2 (Cert.KernelIdeal.Term.agg64 (F := Ideal) (m ((c.tc : Thread Cert.KernelIdeal.nD Cert.KernelIdeal.τ).loc Cert.KernelIdeal.main_arg1))
                (Cert.Gcn.mm1 (m ((c.tc : Thread Cert.KernelIdeal.nD Cert.KernelIdeal.τ).loc Cert.KernelIdeal.main_arg0))
                  (m ((c.tc : Thread Cert.KernelIdeal.nD Cert.KernelIdeal.τ).loc Cert.KernelIdeal.main_arg2))))
                (m ((c.tc : Thread Cert.KernelIdeal.nD Cert.KernelIdeal.τ).loc Cert.KernelIdeal.main_arg3))))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run (Cert.KernelIdeal.defs (F := Ideal)) _ _).mono
    (fun r h c => ⟨(h c).1.trans (Cert.KernelIdeal.Host.W5_v30 m ρ h0 h1 h2 c), (h c).2⟩)
    (Cert.KernelIdeal.Run.run_named (F := Ideal) m ρ)

/-- The reference's frame: its run with the result dropped. -/
theorem frame_ri : Cert.frame_ReferenceIdeal := fun m ρ _ =>
  (θ_run (Cert.ReferenceIdeal.defs (F := Ideal)) _ _).mono (fun _ h c => (h c).2) (Cert.ReferenceIdeal.RefRead.run (F := Ideal) m ρ)

/-- From memories agreeing on the arguments both programs end with the same result array. -/
theorem algebraic (h0 : Cert.KernelIdeal.Host.Val0) (h1 : Cert.KernelIdeal.Host.Val1) (h2 : Cert.KernelIdeal.Host.Val2) :
    Cert.algebraic_KernelIdeal_ReferenceIdeal := by
  intro m ρ m' ρ' _ hagree
  refine ⟨_, kernel_run h0 h1 h2 m ρ, ?_⟩
  refine (θ_run (Cert.ReferenceIdeal.defs (F := Ideal)) _ _).mono (fun _ h c => ⟨(h c).1.trans ?_, (h c).2⟩)
    (Cert.ReferenceIdeal.RefRead.run (F := Ideal) m' ρ')
  rw [(hagree c).1, (hagree c).2.1, (hagree c).2.2.1, (hagree c).2.2.2, whole_eq]
  rfl

end Cert.Proof.Bridge

end
-- ==== Proof.Region0.lean ====
import proofs.«127618_j50096498540828_1_alg».proof.Proof.Gen.KernelIdeal.Frame
import proofs.«127618_j50096498540828_1_alg».proof.Proof.Spec
import Idealize.ShloMosaic.Lib.Pipeline.Value
import Idealize.ShloMosaic.PureOps.Ideal.Laws
import Idealize.ShloMosaic.Lib.ValueIdx

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

/-! ## The body's arithmetic at an index

The body rounds both loaded blocks to the narrower format, which at the extended reals changes nothing, and
multiplies them into a zero accumulator: entry (p, q) of the result is the sum over k of block (p, k) times
weight (k, q). -/

/-- Left index, axis 0: the result's row. -/
theorem lhs_0 (i : S8000x64.Idx) (q : dot_S8000x128_S128x64_S8000x64_1_0_0_1_n_n.contr.Idx) : (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide),
    dif_pos (show (0 : Fin S8000x128.rank) ∈ dot_S8000x128_S128x64_S8000x64_1_0_0_1_n_n.lhsNonContracting by decide)]
  rfl

/-- Right index, axis 1: the result's column. -/
theorem rhs_1 (i : S8000x64.Idx) (q : dot_S8000x128_S128x64_S8000x64_1_0_0_1_n_n.contr.Idx) : (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide),
    dif_pos (show (1 : Fin S128x64.rank) ∈ dot_S8000x128_S128x64_S8000x64_1_0_0_1_n_n.rhsNonContracting by decide)]
  rfl

/-- At the result index (p, q) and the k-th contraction index the left operand is read at (p, k). -/
theorem lhs_eq (p : Fin 8000) (q : Fin 64) (k : Fin 128) :
    dot_S8000x128_S128x64_S8000x64_1_0_0_1_n_n.lhsIdx (ix2 p q) ((ValueIdx.contrEquiv1 dot_S8000x128_S128x64_S8000x64_1_0_0_1_n_n 128 rfl rfl).symm k) = ix2 p k := by
  have hk := ValueIdx.contrEquiv1_symm_val dot_S8000x128_S128x64_S8000x64_1_0_0_1_n_n 128 rfl rfl k
  exact funext fun a => Fin.ext (by
    match a with
    | ⟨0, _⟩ => exact lhs_0 _ _
    | ⟨1, _⟩ => exact (dot_S8000x128_S128x64_S8000x64_1_0_0_1_n_n.lhsIdx_val_of_single rfl _ _).trans hk)

/-- … and the right operand at (k, q). -/
theorem rhs_eq (p : Fin 8000) (q : Fin 64) (k : Fin 128) :
    dot_S8000x128_S128x64_S8000x64_1_0_0_1_n_n.rhsIdx (ix2 p q) ((ValueIdx.contrEquiv1 dot_S8000x128_S128x64_S8000x64_1_0_0_1_n_n 128 rfl rfl).symm k) = ix2 k q := by
  have hk := ValueIdx.contrEquiv1_symm_val dot_S8000x128_S128x64_S8000x64_1_0_0_1_n_n 128 rfl rfl k
  exact funext fun a => Fin.ext (by
    match a with
    | ⟨0, _⟩ => exact (dot_S8000x128_S128x64_S8000x64_1_0_0_1_n_n.rhsIdx_val_of_single rfl _ _).trans hk
    | ⟨1, _⟩ => exact rhs_1 _ _)

/-- The payload at (p, q): the plain sum of products over the 128 contracted columns. -/
theorem pay_apply (x0 : Vec Ideal S8000x128 .f32) (x1 : Vec Ideal S128x64 .f32) (p : Fin 8000) (q : Fin 64) :
    Gen.k0_pay1 x0 x1 (ix2 p q) = ∑ k : Fin 128, x0 (ix2 p k) * x1 (ix2 k q) := by
  unfold Gen.k0_pay1
  refine (Ideal.matmul_constant_zero_apply dot_S8000x128_S128x64_S8000x64_1_0_0_1_n_n none _ _ (ix2 p q)).trans ?_
  rw [← Equiv.sum_comp (ValueIdx.contrEquiv1 dot_S8000x128_S128x64_S8000x64_1_0_0_1_n_n 128 rfl rfl).symm]
  refine Finset.sum_congr rfl fun k _ => ?_
  rw [lhs_eq, rhs_eq]
  rfl

/-! ## The grid

Ten points; point t reads rows 8000·t … 8000·t + 7999 of the left operand, the whole weight matrix, and writes
the same rows of the result. -/

theorem hz : (![0, 0] : Fin 2 → Nat) = fun _ => 0 := funext fun a => by fin_cases a <;> rfl

/-- The index maps, decided over the ten points. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every block row of the result is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- The body on block row b: if the first loaded block is rows 8000·b … of `X` and the second is all of `W`, then
    entry (p, q) of what the body computes is entry (8000·b + p, q) of the product of `X` and `W`. -/
theorem blk_eq (X : (⟨2, ![80000, 128]⟩ : Shape).Idx → EReal) (W : (⟨2, ![128, 64]⟩ : Shape).Idx → EReal)
    (x0 : Vec Ideal S8000x128 .f32) (x1 : Vec Ideal S128x64 .f32) (b : Nat) (hb : b ≤ 9)
    (h0 : ∀ (p : Fin 8000) (k : Fin 128), x0 (ix2 p k) = X (ix2 ⟨b * 8000 + p.val, by omega⟩ k))
    (h1 : ∀ (k : Fin 128) (q : Fin 64), x1 (ix2 k q) = W (ix2 k q))
    (p : Fin 8000) (q : Fin 64) :
    Gen.k0_pay1 x0 x1 (ix2 p q) = Cert.Gcn.mm1 X W (ix2 ⟨b * 8000 + p.val, by omega⟩ q) := by
  rw [pay_apply]
  unfold Cert.Gcn.mm1
  exact Finset.sum_congr rfl fun k _ => congrArg₂ (· * ·) (h0 p k) (h1 k q)

/-- What point t writes back is block t of the product of the two arrays as the region finds them. -/
theorem flushed_eq (V : (c : Dev nD) → (b : Ref sig .tc) → Buf (Elt Ideal) ((c : Thread nD τ).loc b)) (c : Dev nD) (t : Fin cfg0.N) :
    (Gen.dat0 (F := Ideal) V c).flushed 2 t
      = ((cfg0.win 2).blk t).view.read (Elt Ideal) (Cert.Gcn.mm1 (V c main_arg0) (V c main_arg2)) := by
  show (cfg0.win 2).cut (grid0.coords t) ((Gen.dat0 V c).after 2 t) = _
  rw [Gen.after0_2]
  unfold Gen.out0_2
  rw [View.canon_unit_zero hz]
  simp only [View.ld_unit_zero (S := S8000x128) hz, View.ld_unit_zero (S := S128x64) hz]
  obtain ⟨e0, e1, e2, e3, e4, e5⟩ := idx_facts t
  funext j
  obtain ⟨p, q, rfl⟩ : ∃ (p : Fin 8000) (q : Fin 64), j = ix2 p q := ⟨j 0, j 1, eq_ix2 j⟩
  show Gen.k0_pay1 (Gen.iblk0 V c 0 t) (Gen.iblk0 V c 1 t) (ix2 p q)
    = Cert.Gcn.mm1 (V c main_arg0) (V c main_arg2) (((cfg0.win 2).blk t).view.emb (ix2 p q))
  refine (blk_eq (V c main_arg0) (V c main_arg2) (Gen.iblk0 V c 0 t) (Gen.iblk0 V c 1 t) (win0_2.index t (0 : Fin 2)) e5
    (fun p k => ?_) (fun k q => ?_) p q).trans ?_
  · -- the first window's block at point t is rows 8000·t … of the left array, all 128 columns
    show V c main_arg0 (((cfg0.win 0).blk t).view.emb (ix2 p k)) = _
    refine congrArg (V c main_arg0) (funext fun a => Fin.ext ?_)
    match a with
    | ⟨0, _⟩ =>
      show win0_0.index t (0 : Fin 2) * 8000 + 1 * p.val = win0_2.index t (0 : Fin 2) * 8000 + p.val
      omega
    | ⟨1, _⟩ =>
      show win0_0.index t (1 : Fin 2) * 128 + 1 * k.val = k.val
      omega
  · -- the second window's block is the whole weight matrix at every point
    show V c main_arg2 (((cfg0.win 1).blk t).view.emb (ix2 k q)) = _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 64 + 1 * q.val = q.val
      omega
  · -- the output window's block at point t is the same rows of the result, all 64 columns
    refine congrArg (Cert.Gcn.mm1 (V c main_arg0) (V c main_arg2)) (funext fun a => Fin.ext ?_)
    match a with
    | ⟨0, _⟩ =>
      show win0_2.index t (0 : Fin 2) * 8000 + p.val = win0_2.index t (0 : Fin 2) * 8000 + 1 * p.val
      omega
    | ⟨1, _⟩ =>
      show q.val = win0_2.index t (1 : Fin 2) * 64 + 1 * q.val
      omega

/-! ## From the blocks to the array -/

/-- An index of the result is in point t's block iff each coordinate is in the block's range on its axis. -/
theorem mem_blk (t : Fin cfg0.N) (i : S80000x64.Idx) :
    i ∈ ((cfg0.win 2).blk t).view.set ↔ ∀ a : Fin 2, win0_2.index t a * S8000x64.size a ≤ (i a).val
      ∧ (i a).val < win0_2.index t a * S8000x64.size a + S8000x64.size a := by
  show i ∈ ((View.whole main_v0).slice (win0_2.rect t)).set ↔ _
  rw [View.set_slice_whole, Rect.mem_set_unit]
  exact Iff.rfl

/-- The ten blocks cover the result: row r is in the block of the point whose block row is r / 8000. -/
theorem cover (i : S80000x64.Idx) :
    ∃ t : Fin cfg0.N, (cfg0.win 2).flush t = true ∧ i ∈ ((cfg0.win 2).blk t).view.set := by
  have hi0 : (i 0).val < 80000 := (i 0).isLt
  have hi1 : (i 1).val < 64 := (i 1).isLt
  obtain ⟨t, ht⟩ := idx_onto ⟨(i 0).val / 8000, by omega⟩
  have q0 : win0_2.index t (0 : Fin 2) = (i 0).val / 8000 := congrFun ht 0
  have q1 : win0_2.index t (1 : Fin 2) = 0 := congrFun ht 1
  refine ⟨t, Gen.flush0_2 t, ?_⟩
  rw [mem_blk]
  intro a
  match a with
  | ⟨0, _⟩ =>
    show win0_2.index t (0 : Fin 2) * 8000 ≤ (i 0).val ∧ (i 0).val < win0_2.index t (0 : Fin 2) * 8000 + 8000
    omega
  | ⟨1, _⟩ =>
    show win0_2.index t (1 : Fin 2) * 64 ≤ (i 1).val ∧ (i 1).val < win0_2.index t (1 : Fin 2) * 64 + 64
    omega

/-- The result array after the region: every point writes back its block of the product, and the blocks cover the
    array, so the array is the product. -/
theorem final (V : (c : Dev nD) → (b : Ref sig .tc) → Buf (Elt Ideal) ((c : Thread nD τ).loc b)) (c : Dev nD) :
    (Gen.dat0 (F := Ideal) V c).arrAt 2 cfg0.N = Cert.Gcn.mm1 (V c main_arg0) (V c main_arg2) := by
  exact (Gen.dat0 (F := Ideal) V c).arrAt_eq_of_cover 2 _ (fun t _ => flushed_eq V c t) cover

end Cert.KernelIdeal.Region0

end
-- ==== Proof.Region1.lean ====
import proofs.«127618_j50096498540828_1_alg».proof.Proof.Gen.KernelIdeal.Frame
import proofs.«127618_j50096498540828_1_alg».proof.Proof.Spec
import Idealize.ShloMosaic.Lib.Pipeline.Value
import Idealize.ShloMosaic.PureOps.Ideal.Laws
import Idealize.ShloMosaic.Lib.ValueIdx

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

/-! ## The body's arithmetic at an index

The body takes the entrywise maximum of the loaded block with the zero word's value, rounds it and the weight block
to the narrower format, which at the extended reals changes nothing, and multiplies them into a zero accumulator:
entry (p, q) of the result is the sum over k of the positive part of block (p, k) times weight (k, q). -/

/-- Left index, axis 0: the result's row. -/
theorem lhs_0 (i : S8000x40.Idx) (q : dot_S8000x64_S64x40_S8000x40_1_0_0_1_n_n.contr.Idx) : (dot_S8000x64_S64x40_S8000x40_1_0_0_1_n_n.lhsIdx i q 0).val = (i 0).val := by
  unfold DotDims.lhsIdx
  rw [dif_neg (show ¬(0 : Fin S8000x64.rank) ∈ dot_S8000x64_S64x40_S8000x40_1_0_0_1_n_n.lhsBatch by decide),
    dif_pos (show (0 : Fin S8000x64.rank) ∈ dot_S8000x64_S64x40_S8000x40_1_0_0_1_n_n.lhsNonContracting by decide)]
  rfl

/-- Right index, axis 1: the result's column. -/
theorem rhs_1 (i : S8000x40.Idx) (q : dot_S8000x64_S64x40_S8000x40_1_0_0_1_n_n.contr.Idx) : (dot_S8000x64_S64x40_S8000x40_1_0_0_1_n_n.rhsIdx i q 1).val = (i 1).val := by
  unfold DotDims.rhsIdx
  rw [dif_neg (show ¬(1 : Fin S64x40.rank) ∈ dot_S8000x64_S64x40_S8000x40_1_0_0_1_n_n.rhsBatch by decide),
    dif_pos (show (1 : Fin S64x40.rank) ∈ dot_S8000x64_S64x40_S8000x40_1_0_0_1_n_n.rhsNonContracting by decide)]
  rfl

/-- At the result index (p, q) and the k-th contraction index the left operand is read at (p, k). -/
theorem lhs_eq (p : Fin 8000) (q : Fin 40) (k : Fin 64) :
    dot_S8000x64_S64x40_S8000x40_1_0_0_1_n_n.lhsIdx (ix2 p q) ((ValueIdx.contrEquiv1 dot_S8000x64_S64x40_S8000x40_1_0_0_1_n_n 64 rfl rfl).symm k) = ix2 p k := by
  have hk := ValueIdx.contrEquiv1_symm_val dot_S8000x64_S64x40_S8000x40_1_0_0_1_n_n 64 rfl rfl k
  exact funext fun a => Fin.ext (by
    match a with
    | ⟨0, _⟩ => exact lhs_0 _ _
    | ⟨1, _⟩ => exact (dot_S8000x64_S64x40_S8000x40_1_0_0_1_n_n.lhsIdx_val_of_single rfl _ _).trans hk)

/-- … and the right operand at (k, q). -/
theorem rhs_eq (p : Fin 8000) (q : Fin 40) (k : Fin 64) :
    dot_S8000x64_S64x40_S8000x40_1_0_0_1_n_n.rhsIdx (ix2 p q) ((ValueIdx.contrEquiv1 dot_S8000x64_S64x40_S8000x40_1_0_0_1_n_n 64 rfl rfl).symm k) = ix2 k q := by
  have hk := ValueIdx.contrEquiv1_symm_val dot_S8000x64_S64x40_S8000x40_1_0_0_1_n_n 64 rfl rfl k
  exact funext fun a => Fin.ext (by
    match a with
    | ⟨0, _⟩ => exact (dot_S8000x64_S64x40_S8000x40_1_0_0_1_n_n.rhsIdx_val_of_single rfl _ _).trans hk
    | ⟨1, _⟩ => exact rhs_1 _ _)

/-- The positive part of the loaded block at an index: a cast of a shape to itself is the identity, the splat reads
    its scalar everywhere, and the entrywise maximum at the extended reals is `max`. -/
theorem relu_blk (x0 : Vec Ideal S8000x64 .f32) (j : S8000x64.Idx) :
    (maximumf (shapeCast S8000x64 x0 shapeCasts_S8000x64_S8000x64) (broadcast S8000x64 (Scalar.ofBits .f32 0x00000000#32))
      : FVec Ideal S8000x64 .f32) j = max (x0 j) (Ideal.ofBits .f32 0x00000000#32) := by
  rw [shapeCast_self]
  rfl

/-- The payload at (p, q): the sum over the 64 contracted columns of positive part times weight. -/
theorem pay_apply (x0 : Vec Ideal S8000x64 .f32) (x1 : Vec Ideal S64x40 .f32) (p : Fin 8000) (q : Fin 40) :
    Gen.k1_pay1 x0 x1 (ix2 p q) = ∑ k : Fin 64, max (x0 (ix2 p k)) (Ideal.ofBits .f32 0x00000000#32) * x1 (ix2 k q) := by
  unfold Gen.k1_pay1
  refine (Ideal.matmul_constant_zero_apply dot_S8000x64_S64x40_S8000x40_1_0_0_1_n_n none _ _ (ix2 p q)).trans ?_
  rw [← Equiv.sum_comp (ValueIdx.contrEquiv1 dot_S8000x64_S64x40_S8000x40_1_0_0_1_n_n 64 rfl rfl).symm]
  refine Finset.sum_congr rfl fun k _ => ?_
  rw [lhs_eq, rhs_eq]
  exact congrArg (· * x1 (ix2 k q)) (relu_blk x0 (ix2 p k))

/-! ## The grid

Ten points; point t reads rows 8000·t … 8000·t + 7999 of the left operand, the whole weight matrix, and writes
the same rows of the result. -/

theorem hz : (![0, 0] : Fin 2 → Nat) = fun _ => 0 := funext fun a => by fin_cases a <;> rfl

/-- The index maps, decided over the ten points. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every block row of the result is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- The body on block row b: if the first loaded block is rows 8000·b … of `A` and the second is all of `W`, then
    entry (p, q) of what the body computes is entry (8000·b + p, q) of the product of the positive part of `A` with `W`. -/
theorem blk_eq (A : (⟨2, ![80000, 64]⟩ : Shape).Idx → EReal) (W : (⟨2, ![64, 40]⟩ : Shape).Idx → EReal)
    (x0 : Vec Ideal S8000x64 .f32) (x1 : Vec Ideal S64x40 .f32) (b : Nat) (hb : b ≤ 9)
    (h0 : ∀ (p : Fin 8000) (k : Fin 64), x0 (ix2 p k) = A (ix2 ⟨b * 8000 + p.val, by omega⟩ k))
    (h1 : ∀ (k : Fin 64) (q : Fin 40), x1 (ix2 k q) = W (ix2 k q))
    (p : Fin 8000) (q : Fin 40) :
    Gen.k1_pay1 x0 x1 (ix2 p q) = Cert.Gcn.mm2 A W (ix2 ⟨b * 8000 + p.val, by omega⟩ q) := by
  rw [pay_apply]
  unfold Cert.Gcn.mm2
  exact Finset.sum_congr rfl fun k _ =>
    congrArg₂ (· * ·) (congrArg (max · (Ideal.ofBits .f32 0x00000000#32)) (h0 p k)) (h1 k q)

/-- What point t writes back is block t of the product of the positive part of the first array with the second, as
    the region finds them. -/
theorem flushed_eq (V : (c : Dev nD) → (b : Ref sig .tc) → Buf (Elt Ideal) ((c : Thread nD τ).loc b)) (c : Dev nD) (t : Fin cfg1.N) :
    (Gen.dat1 (F := Ideal) V c).flushed 2 t
      = ((cfg1.win 2).blk t).view.read (Elt Ideal) (Cert.Gcn.mm2 (V c main_v14) (V c main_arg3)) := by
  show (cfg1.win 2).cut (grid1.coords t) ((Gen.dat1 V c).after 2 t) = _
  rw [Gen.after1_2]
  unfold Gen.out1_2
  rw [View.canon_unit_zero hz]
  simp only [View.ld_unit_zero (S := S8000x64) hz, View.ld_unit_zero (S := S64x40) hz]
  obtain ⟨e0, e1, e2, e3, e4, e5⟩ := idx_facts t
  funext j
  obtain ⟨p, q, rfl⟩ : ∃ (p : Fin 8000) (q : Fin 40), j = ix2 p q := ⟨j 0, j 1, eq_ix2 j⟩
  show Gen.k1_pay1 (Gen.iblk1 V c 0 t) (Gen.iblk1 V c 1 t) (ix2 p q)
    = Cert.Gcn.mm2 (V c main_v14) (V c main_arg3) (((cfg1.win 2).blk t).view.emb (ix2 p q))
  refine (blk_eq (V c main_v14) (V c main_arg3) (Gen.iblk1 V c 0 t) (Gen.iblk1 V c 1 t) (win1_2.index t (0 : Fin 2)) e5
    (fun p k => ?_) (fun k q => ?_) p q).trans ?_
  · -- the first window's block at point t is rows 8000·t … of the left array, all 64 columns
    show V c main_v14 (((cfg1.win 0).blk t).view.emb (ix2 p k)) = _
    refine congrArg (V c main_v14) (funext fun a => Fin.ext ?_)
    match a with
    | ⟨0, _⟩ =>
      show win1_0.index t (0 : Fin 2) * 8000 + 1 * p.val = win1_2.index t (0 : Fin 2) * 8000 + p.val
      omega
    | ⟨1, _⟩ =>
      show win1_0.index t (1 : Fin 2) * 64 + 1 * k.val = k.val
      omega
  · -- the second window's block is the whole weight matrix at every point
    show V c main_arg3 (((cfg1.win 1).blk t).view.emb (ix2 k q)) = _
    refine congrArg (V c main_arg3) (funext fun a => Fin.ext ?_)
    match a with
    | ⟨0, _⟩ =>
      show win1_1.index t (0 : Fin 2) * 64 + 1 * k.val = k.val
      omega
    | ⟨1, _⟩ =>
      show win1_1.index t (1 : Fin 2) * 40 + 1 * q.val = q.val
      omega
  · -- the output window's block at point t is the same rows of the result, all 40 columns
    refine congrArg (Cert.Gcn.mm2 (V c main_v14) (V c main_arg3)) (funext fun a => Fin.ext ?_)
    match a with
    | ⟨0, _⟩ =>
      show win1_2.index t (0 : Fin 2) * 8000 + p.val = win1_2.index t (0 : Fin 2) * 8000 + 1 * p.val
      omega
    | ⟨1, _⟩ =>
      show q.val = win1_2.index t (1 : Fin 2) * 40 + 1 * q.val
      omega

/-! ## From the blocks to the array -/

/-- An index of the result is in point t's block iff each coordinate is in the block's range on its axis. -/
theorem mem_blk (t : Fin cfg1.N) (i : S80000x40.Idx) :
    i ∈ ((cfg1.win 2).blk t).view.set ↔ ∀ a : Fin 2, win1_2.index t a * S8000x40.size a ≤ (i a).val
      ∧ (i a).val < win1_2.index t a * S8000x40.size a + S8000x40.size a := by
  show i ∈ ((View.whole main_v15).slice (win1_2.rect t)).set ↔ _
  rw [View.set_slice_whole, Rect.mem_set_unit]
  exact Iff.rfl

/-- The ten blocks cover the result: row r is in the block of the point whose block row is r / 8000. -/
theorem cover (i : S80000x40.Idx) :
    ∃ t : Fin cfg1.N, (cfg1.win 2).flush t = true ∧ i ∈ ((cfg1.win 2).blk t).view.set := by
  have hi0 : (i 0).val < 80000 := (i 0).isLt
  have hi1 : (i 1).val < 40 := (i 1).isLt
  obtain ⟨t, ht⟩ := idx_onto ⟨(i 0).val / 8000, by omega⟩
  have q0 : win1_2.index t (0 : Fin 2) = (i 0).val / 8000 := congrFun ht 0
  have q1 : win1_2.index t (1 : Fin 2) = 0 := congrFun ht 1
  refine ⟨t, Gen.flush1_2 t, ?_⟩
  rw [mem_blk]
  intro a
  match a with
  | ⟨0, _⟩ =>
    show win1_2.index t (0 : Fin 2) * 8000 ≤ (i 0).val ∧ (i 0).val < win1_2.index t (0 : Fin 2) * 8000 + 8000
    omega
  | ⟨1, _⟩ =>
    show win1_2.index t (1 : Fin 2) * 40 ≤ (i 1).val ∧ (i 1).val < win1_2.index t (1 : Fin 2) * 40 + 40
    omega

/-- The result array after the region: every point writes back its block of the product, and the blocks cover the
    array, so the array is the product. -/
theorem final (V : (c : Dev nD) → (b : Ref sig .tc) → Buf (Elt Ideal) ((c : Thread nD τ).loc b)) (c : Dev nD) :
    (Gen.dat1 (F := Ideal) V c).arrAt 2 cfg1.N = Cert.Gcn.mm2 (V c main_v14) (V c main_arg3) := by
  exact (Gen.dat1 (F := Ideal) V c).arrAt_eq_of_cover 2 _ (fun t _ => flushed_eq V c t) cover

end Cert.KernelIdeal.Region1

end
-- ==== Proof.Region2.lean ====
/-
  Region 2, the row-wise log-softmax: after the region the output array is the specification's `lsm` of the input array.

  The grid has ten points; at point `t` the body reads block row `t` of the input (8000 rows of 40 entries) and writes
  block row `t` of the output.  The body's payload at `(p, q)` is the entry minus the maximum of row `p`, minus the
  logarithm of the sum over row `p` of the exponentials of the shifted entries.  Both row statistics read only entries of
  row `p` of the block, which is row `t · 8000 + p` of the array, so the payload is the specification at that row; the ten
  block rows tile the array.
-/
import proofs.«127618_j50096498540828_1_alg».proof.Proof.Gen.KernelIdeal.Frame
import proofs.«127618_j50096498540828_1_alg».proof.Proof.Spec
import Idealize.ShloMosaic.Lib.Pipeline.Value
import Idealize.ShloMosaic.PureOps.Ideal.Laws
import Idealize.ShloMosaic.Lib.ValueIdx

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

/-! ## The layout forms of a row statistic: a column made a one-column table, and that table spread along the rows -/

/-- A column of 8000 values cast to a one-column table reads, at `(p, 0)`, the value of row `p`. -/
theorem castCol_apply {α : Type} (v : S8000.Idx → α) (h : S8000.ShapeCasts S8000x1) (p : Fin 8000) :
    shapeCast S8000x1 v h (ix2 p (0 : Fin 1)) = v (ix1 p) :=
  shapeCast_apply v h (ix2 p (0 : Fin 1)) (ix1 p) (by
    rw [Shape.rowMajor_val_two, Shape.rowMajor_val_one]
    show p.val = p.val * 1 + 0
    omega)

/-- A one-column table broadcast along the rows reads, at `(p, q)`, the entry of row `p`. -/
theorem bcastCols_apply {α : Type} (v : S8000x1.Idx → α) (h : S8000x1.Broadcasts S8000x40) (p : Fin 8000) (q : Fin 40) :
    broadcastTo S8000x40 v h (ix2 p q) = v (ix2 p (0 : Fin 1)) :=
  broadcastTo_apply v h (ix2 p q) (ix2 p (0 : Fin 1)) (fun a => match a with
    | ⟨0, _⟩ => by show p.val = if (8000 : Nat) = 1 then 0 else p.val; rw [if_neg (by decide)]
    | ⟨1, _⟩ => by show 0 = if (1 : Nat) = 1 then 0 else q.val; rw [if_pos rfl])

/-- Row `p` of a block with the column coordinate `k` inserted is the index `(p, k)`. -/
theorem lift_eq (h : S8000x40.Reduces [1] S8000) (p : Fin 8000) (k : Fin 40) : h.lift (ix1 p) k = ix2 p k :=
  funext fun c => Fin.ext (by match c with | ⟨0, _⟩ => rfl | ⟨1, _⟩ => rfl)

/-- The block's maximum over axis 1 from the −∞ word, at row `p`: the fold of `max` over the row's forty entries. -/
theorem rowMax_apply (x : FVec Ideal S8000x40 .f32) (h : S8000x40.Reduces [1] S8000) (hφ : FKind.Formats .f32)
    (hacc : (0xFF800000#32 : BitVec 32) = FKind.maximumf.neutral .f32 hφ) (p : Fin 8000) :
    multiReduction .maximumf [1] S8000 x 0xFF800000#32 h hφ hacc (ix1 p)
      = (Finset.univ : Finset (Fin 40)).fold max (Ideal.ofBits .f32 0xFF800000#32) (fun k => x (ix2 p k)) := by
  refine (Ideal.multiReduction_maximumf_single x _ h hφ hacc (ix1 p)).trans ?_
  have e : (x ∘ h.lift (ix1 p)) = fun k : Fin 40 => x (ix2 p k) := funext fun k => congrArg x (lift_eq h p k)
  rw [e]
  rfl

/-- The block's sum over axis 1, at row `p`: the sum of the row's forty entries. -/
theorem rowSum_apply (x : FVec Ideal S8000x40 .f32) (h : S8000x40.Reduces [1] S8000) (hφ : FKind.Formats .f32)
    (hacc : (0x00000000#32 : BitVec 32) = FKind.add.neutral .f32 hφ) (p : Fin 8000) :
    multiReduction .add [1] S8000 x 0x00000000#32 h hφ hacc (ix1 p) = ∑ k : Fin 40, x (ix2 p k) := by
  refine (Ideal.multiReduction_add_single x _ h hφ hacc (ix1 p)).trans ?_
  exact Finset.sum_congr rfl fun k _ => congrArg x (lift_eq h p k)

/-- The maximum of row `p` of a block: the fold of `max` from −∞ over its forty entries. -/
def blkMax (x0 : Vec Ideal S8000x40 .f32) (p : Fin 8000) : EReal :=
  (Finset.univ : Finset (Fin 40)).fold max (Ideal.ofBits .f32 0xFF800000#32) (fun k => x0 (ix2 p k))

/-- The vector logarithm and exponential at an index are the extended reals' of the entry. -/
theorem vlog_apply {s : Shape} (z : FVec Ideal s .f32) (i : s.Idx) : log z i = Ideal.log (z i) := rfl
theorem vexp_apply {s : Shape} (z : FVec Ideal s .f32) (i : s.Idx) : exp z i = Ideal.exp (z i) := rfl

/-- The block minus its row maxima (reduced over axis 1, made a one-column table, spread along the rows), at `(p, k)`. -/
theorem shiftedBlk_apply (x0 : FVec Ideal S8000x40 .f32) (h : S8000x40.Reduces [1] S8000) (hφ : FKind.Formats .f32)
    (hacc : (0xFF800000#32 : BitVec 32) = FKind.maximumf.neutral .f32 hφ) (h1 : S8000.ShapeCasts S8000x1)
    (h2 : S8000x1.Broadcasts S8000x40) (p : Fin 8000) (k : Fin 40) :
    subf x0 (broadcastTo S8000x40 (shapeCast S8000x1 (multiReduction .maximumf [1] S8000 x0 0xFF800000#32 h hφ hacc) h1) h2) (ix2 p k)
      = x0 (ix2 p k) - blkMax x0 p :=
  (subf_apply x0 _ _).trans (congrArg (x0 (ix2 p k) - ·)
    ((bcastCols_apply _ h2 p k).trans ((castCol_apply _ h1 p).trans (rowMax_apply x0 h hφ hacc p))))

/-- The body's payload at `(p, q)`: the entry minus its row's maximum, minus the logarithm of the row's sum of
    exponentials of the shifted entries. -/
theorem pay_apply (x0 : Vec Ideal S8000x40 .f32) (p : Fin 8000) (q : Fin 40) :
    Gen.k2_pay1 x0 (ix2 p q)
      = (x0 (ix2 p q) - blkMax x0 p)
        - Ideal.log (Ideal.ofBits .f32 0x00000000#32 + ∑ k : Fin 40, Ideal.exp (x0 (ix2 p k) - blkMax x0 p)) := by
  unfold Gen.k2_pay1
  dsimp only
  rw [shapeCast_self]
  refine (subf_apply _ _ _).trans ?_
  refine congrArg₂ (· - ·) (shiftedBlk_apply x0 _ _ _ _ _ p q) ?_
  refine (bcastCols_apply _ _ p q).trans ?_
  refine (vlog_apply _ _).trans (congrArg Ideal.log ?_)
  refine (castCol_apply _ _ p).trans ?_
  refine (rowSum_apply _ _ _ _ p).trans ?_
  rw [Ideal.ofBits_zero_f32, zero_add]
  refine Finset.sum_congr rfl fun k _ => ?_
  refine (vexp_apply _ _).trans (congrArg Ideal.exp ?_)
  exact shiftedBlk_apply x0 _ _ _ _ _ p k

/-! ## From a block's row to the array's row -/

/-- If row `p` of a block is row `r` of the table, entry by entry, the payload at `(p, q)` is the specification at `(r, q)`:
    the row's maximum and the row's sum read only entries of that one row. -/
theorem pay_eq_lsm (x0 : Vec Ideal S8000x40 .f32) (a : (⟨2, ![80000, 40]⟩ : Shape).Idx → EReal) (p : Fin 8000) (q : Fin 40)
    (r : Fin 80000) (hx : ∀ k : Fin 40, x0 (ix2 p k) = a (ix2 r k)) :
    Gen.k2_pay1 x0 (ix2 p q) = Cert.Gcn.lsm a (ix2 r q) := by
  have hM : blkMax x0 p = Cert.Gcn.rowMax a r := by
    unfold blkMax Cert.Gcn.rowMax
    exact congrArg (fun f : Fin 40 → EReal => (Finset.univ : Finset (Fin 40)).fold max (Ideal.ofBits .f32 0xFF800000#32) f) (funext hx)
  rw [pay_apply, hM, hx q]
  unfold Cert.Gcn.lsm
  refine congrArg (fun s => (a (ix2 r q) - Cert.Gcn.rowMax a r) - Ideal.log (Ideal.ofBits .f32 0x00000000#32 + s)) ?_
  exact Finset.sum_congr rfl fun k _ => by rw [hx k]

theorem hz : (![0, 0] : Fin 2 → Nat) = fun _ => 0 := funext fun a => by fin_cases a <;> rfl

/-- The printed index maps, decided over the grid: at point `t` both windows are at block row `t`, block column 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

theorem t_lt (t : Fin cfg2.N) : t.val < 10 := lt_of_lt_of_eq t.isLt N_2

/-- The array row under row `p` of point `t`'s block. -/
def rowOf (t : Fin cfg2.N) (p : Fin 8000) : Fin 80000 :=
  ⟨t.val * 8000 + p.val, by have := t_lt t; have := p.isLt; omega⟩

/-- Where an element of the input window's block at point `t` sits in the array. -/
theorem emb0 (t : Fin cfg2.N) (p : Fin 8000) (k : Fin 40) :
    ((cfg2.win 0).blk t).view.emb (ix2 p k) = ix2 (rowOf t p) k := by
  obtain ⟨e0, e1, e2, e3⟩ := idx_facts t
  funext a; apply Fin.ext
  match a with
  | ⟨0, _⟩ => show win2_0.index t (0 : Fin 2) * 8000 + 1 * p.val = t.val * 8000 + p.val; omega
  | ⟨1, _⟩ => show win2_0.index t (1 : Fin 2) * 40 + 1 * k.val = k.val; omega

/-- Where an element of the output window's block at point `t` sits in the array. -/
theorem emb1 (t : Fin cfg2.N) (p : Fin 8000) (k : Fin 40) :
    ((cfg2.win 1).blk t).view.emb (ix2 p k) = ix2 (rowOf t p) k := by
  obtain ⟨e0, e1, e2, e3⟩ := idx_facts t
  funext a; apply Fin.ext
  match a with
  | ⟨0, _⟩ => show win2_1.index t (0 : Fin 2) * 8000 + 1 * p.val = t.val * 8000 + p.val; omega
  | ⟨1, _⟩ => show win2_1.index t (1 : Fin 2) * 40 + 1 * k.val = k.val; omega

/-- WHAT POINT `t` WRITES BACK is block `t` of the specification applied to the input array as the region finds it. -/
theorem flushed_eq (V : (c : Dev nD) → (b : Ref sig .tc) → Buf (Elt Ideal) ((c : Thread nD τ).loc b)) (c : Dev nD) (t : Fin cfg2.N) :
    (Gen.dat2 (F := Ideal) V c).flushed 1 t
      = ((cfg2.win 1).blk t).view.read (Elt Ideal) (Cert.Gcn.lsm (V c main_v29)) := by
  show (cfg2.win 1).cut (grid2.coords t) ((Gen.dat2 V c).after 1 t) = _
  rw [Gen.after2_1]
  unfold Gen.out2_1
  rw [View.canon_unit_zero hz]
  simp only [View.ld_unit_zero (S := S8000x40) hz]
  funext j
  obtain ⟨p, q, rfl⟩ : ∃ (p : Fin 8000) (q : Fin 40), j = ix2 p q := ⟨j 0, j 1, eq_ix2 j⟩
  show Gen.k2_pay1 (Gen.iblk2 V c 0 t) (ix2 p q) = _
  rw [View.read_apply]
  refine (pay_eq_lsm (Gen.iblk2 V c 0 t) (V c main_v29) p q (rowOf t p) (fun k => ?_)).trans ?_
  · unfold Gen.iblk2
    rw [View.read_apply]
    exact congrArg (V c main_v29) (emb0 t p k)
  · exact congrArg (Cert.Gcn.lsm (V c main_v29)) (emb1 t p q).symm

/-- An index of the array is in point `t`'s output block iff each coordinate is in the block's range on its axis. -/
theorem mem_blk (t : Fin cfg2.N) (i : S80000x40.Idx) :
    i ∈ ((cfg2.win 1).blk t).view.set
      ↔ ∀ a : Fin 2, win2_1.index t a * S8000x40.size a ≤ (i a).val
          ∧ (i a).val < win2_1.index t a * S8000x40.size a + S8000x40.size a := by
  show i ∈ ((View.whole main_v30).slice (win2_1.rect t)).set ↔ _
  rw [View.set_slice_whole, Rect.mem_set_unit]
  exact Iff.rfl

/-- Every index of the array is in the output block of the point its row falls in: the ten blocks of 8000 rows tile the
    80000 rows. -/
theorem cover (i : S80000x40.Idx) :
    ∃ t : Fin cfg2.N, (cfg2.win 1).flush t = true ∧ i ∈ ((cfg2.win 1).blk t).view.set := by
  have hi0 : (i 0).val < 80000 := (i 0).isLt
  have hi1 : (i 1).val < 40 := (i 1).isLt
  have hN : cfg2.N = 10 := N_2
  obtain ⟨t, ht⟩ : ∃ t : Fin cfg2.N, t.val = (i 0).val / 8000 := ⟨⟨(i 0).val / 8000, by rw [hN]; omega⟩, rfl⟩
  obtain ⟨e0, e1, e2, e3⟩ := idx_facts t
  refine ⟨t, Gen.flush2_1 t, ?_⟩
  rw [mem_blk]
  intro a
  match a with
  | ⟨0, _⟩ =>
    show win2_1.index t (0 : Fin 2) * 8000 ≤ (i 0).val ∧ (i 0).val < win2_1.index t (0 : Fin 2) * 8000 + 8000
    omega
  | ⟨1, _⟩ =>
    show win2_1.index t (1 : Fin 2) * 40 ≤ (i 1).val ∧ (i 1).val < win2_1.index t (1 : Fin 2) * 40 + 40
    omega

/-- THE ARRAY after the region: the specification's log-softmax of the input array as the region finds it. -/
theorem final (V : (c : Dev nD) → (b : Ref sig .tc) → Buf (Elt Ideal) ((c : Thread nD τ).loc b)) (c : Dev nD) :
    (Gen.dat2 (F := Ideal) V c).arrAt 1 cfg2.N = Cert.Gcn.lsm (V c main_v29) :=
  (Gen.dat2 (F := Ideal) V c).arrAt_eq_of_cover 1 (Cert.Gcn.lsm (V c main_v29)) (fun t _ => flushed_eq V c t) cover

end Cert.KernelIdeal.Region2

end
-- ==== Proof.lean ====
/-
  Equivalence, over the extended reals, of a tiled two-layer graph convolution with its plain reference.

  Both programs compute, from node features `x : 80000 × 128`, an edge list `e : 2 × 1280000` and weights
  `w₁ : 128 × 64`, `w₂ : 64 × 40`,

      out = logsoftmax_rows ( agg_e ( max(agg_e (x · w₁), 0) · w₂ ) ),

  where `agg_e` adds every edge's source row into its destination row.  The kernel program computes the two matrix
  products and the log-softmax in three tiled regions of ten row blocks each (rounding the products' operands to a
  narrower format first, which is the identity on exact values) and runs the aggregation on the host between them; the
  reference runs everything on the host.  Read at exact values the two agree operation for operation:

    * a block of a matrix product is the product of the corresponding row block (`Region0`, `Region1`; the host's
      `dot_general` is the same sum, `RefDot`);
    * the log-softmax of a row depends on that row only, so it is computed blockwise (`Region2`); the host's version
      joins the row maximum once more with −∞, which changes nothing (`RefLsm`);
    * the aggregation is the same host computation in both programs and is carried as one opaque function.

  The three frames: the two kernel programs' are the generated frame certificates; the reference's is its run with the
  result dropped.  The idealization rewrote no operation, so `preserves` is `True`.  No law used needs finite inputs.
-/
import proofs.«127618_j50096498540828_1_alg».proof.Defs
import proofs.«127618_j50096498540828_1_alg».proof.Proof.Gen.Kernel
import proofs.«127618_j50096498540828_1_alg».proof.Proof.Gen.Kernel.Frame
import proofs.«127618_j50096498540828_1_alg».proof.Proof.Gen.KernelIdeal
import proofs.«127618_j50096498540828_1_alg».proof.Proof.Gen.KernelIdeal.Frame
import proofs.«127618_j50096498540828_1_alg».proof.Proof.Gen.ReferenceIdeal
import proofs.«127618_j50096498540828_1_alg».proof.Proof.Gen.Pre_finite_inputs
import proofs.«127618_j50096498540828_1_alg».proof.Proof.Bridge
import proofs.«127618_j50096498540828_1_alg».proof.Proof.Region0
import proofs.«127618_j50096498540828_1_alg».proof.Proof.Region1
import proofs.«127618_j50096498540828_1_alg».proof.Proof.Region2
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.Proof.Bridge.frame_ri,
    trivial,
    Cert.Proof.Bridge.algebraic Cert.KernelIdeal.Region0.final Cert.KernelIdeal.Region1.final Cert.KernelIdeal.Region2.final⟩

end Cert.Proof

end
